-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S10000x64 : Shape := ⟨2, ![10000, 64]⟩
abbrev S10000x1 : Shape := ⟨2, ![10000, 1]⟩
abbrev S1600000x64 : Shape := ⟨2, ![1600000, 64]⟩

abbrev nBuf : Space → Nat
  | .hbm => 61
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S1x64, .f32⟩
  | .hbm, ⟨30, _⟩ => ⟨S1x64, .f32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x1, .f32⟩
  | .local _ .vmem, ⟨9, _⟩ => ⟨S10000x1, .f32⟩
  | .local _ .vmem, ⟨10, _⟩ => ⟨S64x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x1, .f32⟩
  | .local _ .vmem, ⟨17, _⟩ => ⟨S10000x1, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x1, .f32⟩
  | .local _ .vmem, ⟨23, _⟩ => ⟨S10000x1, .f32⟩
  | .local _ .vmem, ⟨24, _⟩ => ⟨S64x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v26) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v37) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v14) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 76
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S100000x1, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S100000x1, .f32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S100000x1, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The kernel program's run with every buffer named: from any memory with zero counters every weakly fair execution of
  the program terminates without a fault, and each unscoped buffer of each core ends at the contents the fold through
  the program's segments gives it — host stretches applied in order, each region's arrays at what its write-backs leave.
-/
import proofs.«151540_j48670569398724_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

end Cert.KernelRun

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«151540_j48670569398724_1_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.BodyValues.lean ====
/-
  What each kernel body stores, read at one entry (p, q) of its 10000×64 block, at exact arithmetic.

  The scaling bodies store x[p,q] · s[p,0]: the [10000,1] column of node factors is repeated along the 64 features.
  The dense bodies store Σ_k (x[p,k] · s[p,0]) · w[k,q] + b[0,q] — the two narrowings to bf16 are the identity on
  extended reals, the matrix product into the zero accumulator is the plain sum over the contracted axis, the bias
  row is repeated along the rows — and the first of them takes the maximum of that with the zero word's number.
-/
import proofs.«151540_j48670569398724_1_alg».proof.Proof.Gen.KernelIdeal.Skeleton
import proofs.«151540_j48670569398724_1_alg».proof.Proof.LibMatmulIdx
import proofs.«151540_j48670569398724_1_alg».proof.Proof.LibColumnOps
import proofs.«151540_j48670569398724_1_alg».proof.Proof.LibRowOps
import Idealize.ShloMosaic.Lib.ValueIdx
import Idealize.ShloMosaic.Lib.Pipeline.Value

noncomputable section

namespace Cert.BodyValues

open Idealize.ShloMosaic Idealize.ShloMosaic.ValueIdx Cert.KernelIdeal Cert.KernelIdeal.Gen

/-- The first scaling body at (p, q). -/
theorem scale0_apply (x0 : FVec Ideal S10000x64 .f32) (x1 : FVec Ideal S10000x1 .f32) (p : Fin 10000) (q : Fin 64) :
    k0_pay1 (F := Ideal) x0 x1 (ix2 p q) = x0 (ix2 p q) * x1 (ix2 p (0 : Fin 1)) := by
  unfold k0_pay1
  show x0 (ix2 p q) * broadcastTo S10000x64 (shapeCast S10000x1 x1 _) _ (ix2 p q) = _
  rw [LibColumnOps.broadcastTo_col_apply, shapeCast_self]

/-- The second scaling body at (p, q). -/
theorem scale2_apply (x0 : FVec Ideal S10000x64 .f32) (x1 : FVec Ideal S10000x1 .f32) (p : Fin 10000) (q : Fin 64) :
    k2_pay1 (F := Ideal) x0 x1 (ix2 p q) = x0 (ix2 p q) * x1 (ix2 p (0 : Fin 1)) := by
  unfold k2_pay1
  show shapeCast S10000x64 x0 _ (ix2 p q)
    * broadcastTo S10000x64 (shapeCast S10000x1 x1 _) _ (ix2 p q) = _
  rw [LibColumnOps.broadcastTo_col_apply, shapeCast_self, shapeCast_self]

/-! ## The contraction record of the dense bodies: row of the result × contracted position, contracted position × column -/

theorem lhs_row (i : S10000x64.Idx) (k : dot_S10000x64_S64x64_S10000x64_1_0_0_1_n_n.contr.Idx) : (dot_S10000x64_S64x64_S10000x64_1_0_0_1_n_n.lhsIdx i k 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl

theorem lhs_contr (i : S10000x64.Idx) (k : dot_S10000x64_S64x64_S10000x64_1_0_0_1_n_n.contr.Idx) : (dot_S10000x64_S64x64_S10000x64_1_0_0_1_n_n.lhsIdx i k 1).val = (k ⟨0, by decide⟩).val :=
  dot_S10000x64_S64x64_S10000x64_1_0_0_1_n_n.lhsIdx_val_of_single rfl i k

theorem rhs_contr (i : S10000x64.Idx) (k : dot_S10000x64_S64x64_S10000x64_1_0_0_1_n_n.contr.Idx) : (dot_S10000x64_S64x64_S10000x64_1_0_0_1_n_n.rhsIdx i k 0).val = (k ⟨0, by decide⟩).val :=
  dot_S10000x64_S64x64_S10000x64_1_0_0_1_n_n.rhsIdx_val_of_single rfl i k

theorem rhs_col (i : S10000x64.Idx) (k : dot_S10000x64_S64x64_S10000x64_1_0_0_1_n_n.contr.Idx) : (dot_S10000x64_S64x64_S10000x64_1_0_0_1_n_n.rhsIdx i k 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The product of a block with the weights, into the zero accumulator, at (p, q). -/
theorem product_apply {φ₁ φ₂ : FTy} (l : FVec Ideal S10000x64 φ₁) (r : FVec Ideal S64x64 φ₂) (p : Fin 10000) (q : Fin 64) :
    matmul (F := Ideal) dot_S10000x64_S64x64_S10000x64_1_0_0_1_n_n none l r (constant S10000x64 .f32 0x00000000#32) (ix2 p q)
      = ∑ k : Fin 64, l (ix2 p k) * r (ix2 k q) :=
  LibMatmulIdx.matmul2_apply dot_S10000x64_S64x64_S10000x64_1_0_0_1_n_n rfl rfl lhs_row lhs_contr rhs_contr rhs_col none l r (ix2 p q)

/-- The scaled block times the weights plus the bias row, at (p, q). -/
theorem affine_apply (x0 : FVec Ideal S10000x64 .f32) (x1 : FVec Ideal S10000x1 .f32) (x2 : FVec Ideal S64x64 .f32)
    (x3 : FVec Ideal S1x64 .f32) (p : Fin 10000) (q : Fin 64) :
    k3_pay1 (F := Ideal) x0 x1 x2 x3 (ix2 p q)
      = (∑ k : Fin 64, (x0 (ix2 p k) * x1 (ix2 p (0 : Fin 1))) * x2 (ix2 k q)) + x3 (ix2 (0 : Fin 1) q) := by
  unfold k3_pay1
  show matmul (F := Ideal) dot_S10000x64_S64x64_S10000x64_1_0_0_1_n_n none
        (truncf .bf16 (mulf (shapeCast S10000x64 x0 _)
          (broadcastTo S10000x64 (shapeCast S10000x1 x1 _) _)) _)
        (truncf .bf16 x2 _) (constant S10000x64 .f32 0x00000000#32) (ix2 p q)
      + broadcastTo S10000x64 (shapeCast S1x64 x3 _) _ (ix2 p q) = _
  rw [product_apply, LibRowOps.broadcastTo_row_apply]
  simp only [shapeCast_self]
  refine congrArg (· + x3 (ix2 (0 : Fin 1) q)) (Finset.sum_congr rfl fun k _ => ?_)
  show (x0 (ix2 p k) * broadcastTo S10000x64 x1 _ (ix2 p k)) * x2 (ix2 k q) = _
  rw [LibColumnOps.broadcastTo_col_apply]

/-- The same followed by the maximum with the zero word's number, at (p, q). -/
theorem affine_relu_apply (x0 : FVec Ideal S10000x64 .f32) (x1 : FVec Ideal S10000x1 .f32) (x2 : FVec Ideal S64x64 .f32)
    (x3 : FVec Ideal S1x64 .f32) (p : Fin 10000) (q : Fin 64) :
    k1_pay1 (F := Ideal) x0 x1 x2 x3 (ix2 p q)
      = max ((∑ k : Fin 64, (x0 (ix2 p k) * x1 (ix2 p (0 : Fin 1))) * x2 (ix2 k q)) + x3 (ix2 (0 : Fin 1) q))
          (Ideal.ofBits .f32 0x00000000#32) := by
  have h := affine_apply x0 x1 x2 x3 p q
  unfold k3_pay1 at h
  unfold k1_pay1
  exact congrArg (max · (Ideal.ofBits .f32 0x00000000#32)) h

end Cert.BodyValues

end
-- ==== Proof.GcnSpec.lean ====
/-
  The function both programs compute: two graph-convolution layers over N = 100000 nodes with 64 features and
  E = 1600000 edges, written once, as whole arrays over the extended reals.

  A node's factor is the reciprocal square root of its degree clipped below at 1 — the out-degree for the source side,
  the in-degree for the destination side —, the degree being the segment sum of ones over the edge list. One layer
  takes node features h and: multiplies row r of h by the source factor of r (`scaleRows`); for every edge gathers
  the row of its source node (a negative node id wrapped by N first) and adds it into the row of its destination node
  (`aggregate`); multiplies row r of that by the destination factor of r (`scaleRows` again); multiplies by the 64×64
  weight matrix and adds the bias row (`affineRows`). The first layer is followed by max(·, 0) (`reluRows`).
  The gather and the segment sum are carried as the host operations they are and never opened.
-/
import proofs.«151540_j48670569398724_1_alg».proof.KernelIdeal
import Idealize.ShloMosaic.Lib.ValueIdx
import Idealize.ShloMosaic.PureOps.Ideal.Laws

noncomputable section

namespace Cert.GcnSpec

open Idealize.ShloMosaic Idealize.ShloMosaic.ValueIdx Cert.KernelIdeal

variable [Cert.KernelIdeal.Facts₀]

open Cert.KernelIdeal.Facts₀

/-- Row r of `x` times the r-th entry of the column `s`. -/
def scaleRows (x : FVec Ideal S100000x64 .f32) (s : FVec Ideal S100000x1 .f32) : FVec Ideal S100000x64 .f32 :=
  fun i => x i * s (ix2 (n0 := 100000) (n1 := 1) (i 0) (0 : Fin 1))

/-- `y · w + b`: entry (r, c) is Σ_k y[r,k] · w[k,c], plus the bias row's entry c. -/
def affineRows (y : FVec Ideal S100000x64 .f32) (w : FVec Ideal S64x64 .f32) (b : FVec Ideal S1x64 .f32) :
    FVec Ideal S100000x64 .f32 :=
  fun i => (∑ k : Fin 64, y (ix2 (n0 := 100000) (n1 := 64) (i 0) k) * w (ix2 (n0 := 64) (n1 := 64) k (i 1)))
    + b (ix2 (n0 := 1) (n1 := 64) (0 : Fin 1) (i 1))

/-- Entrywise maximum with the number the zero word denotes. -/
def reluRows (z : FVec Ideal S100000x64 .f32) : FVec Ideal S100000x64 .f32 :=
  fun i => max (z i) (Ideal.ofBits .f32 0x00000000#32)

/-! The layout changes and the shared host operations, for any float values (at exact arithmetic below). -/

section AnyValues

variable {F : FTy → Type} [FloatOps F]

/-- A vector over the nodes as a column. -/
def colOf (v : FVec F S100000 .f32) : FVec F S100000x1 .f32 :=
  fun i => shapeCast S100000x1 v shapeCasts_S100000_S100000x1 i

/-- A bias vector as a row. -/
def rowOf (b : FVec F S64 .f32) : FVec F S1x64 .f32 :=
  fun i => shapeCast S1x64 b shapeCasts_S64_S1x64 i

/-- The node factors from an edge list's node ids: 1/√(max(1, number of edges naming the node)). -/
def degNorm (ids : Vec F S1600000 .i32) : FVec F S100000 .f32 :=
  Host.rsqrt (maximumf (broadcastInDim S100000 ![] bcast_S_S100000 (id (constant (F := F) S_ .f32 0x3F800000#32)))
    (Host.scatterAdd (F := F) scatter_S100000_S1600000x1_S1600000_n_0_0_1
      (broadcastInDim S100000 ![] bcast_S_S100000 (constant (F := F) S_ .f32 0x00000000#32))
      (broadcastInDim S1600000x1 ![0] bcast_S1600000_S1600000x1_0 ids)
      (broadcastInDim S1600000 ![] bcast_S_S1600000 (constant (F := F) S_ .f32 0x3F800000#32))))

/-- For every edge the source node's row of `h` (a negative id wrapped by N), added into the destination node's row. -/
def aggregate (h : FVec F S100000x64 .f32) (src dst : Vec F S1600000 .i32) : FVec F S100000x64 .f32 :=
  Host.scatterAdd (F := F) scatter_S100000x64_S1600000x1_S1600000x64_1_0_0_1
    (broadcastInDim S100000x64 ![] bcast_S_S100000x64 (constant (F := F) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

end AnyValues

/-- One layer before its last step: scale by the source factors, aggregate along the edges, scale by the destination factors. -/
def propagate (h : FVec Ideal S100000x64 .f32) (ns nd : FVec Ideal S100000x1 .f32) (src dst : Vec Ideal S1600000 .i32) :
    FVec Ideal S100000x64 .f32 :=
  scaleRows (aggregate (F := Ideal) (scaleRows h ns) src dst) nd

/-- The two layers. -/
def result (x : FVec Ideal S100000x64 .f32) (src dst : Vec Ideal S1600000 .i32)
    (w1 : FVec Ideal S64x64 .f32) (b1 : FVec Ideal S64 .f32) (w2 : FVec Ideal S64x64 .f32) (b2 : FVec Ideal S64 .f32) :
    FVec Ideal S100000x64 .f32 :=
  affineRows (propagate (reluRows (affineRows (propagate x (colOf (degNorm (F := Ideal) src)) (colOf (degNorm (F := Ideal) dst)) src dst) w1 (rowOf b1)))
    (colOf (degNorm (F := Ideal) src)) (colOf (degNorm (F := Ideal) dst)) src dst) w2 (rowOf b2)

end Cert.GcnSpec

end
-- ==== Proof.ScaleFirst.lean ====
/-
  The first scaling region, for any contents V of the buffers when the region is entered: its output array ends holding
  every row of the features times its node's source factor. Point t of the grid of 10 works on rows 10000·t … 10000·t + 9999;
  what it writes back is that block of the whole-array function, and the ten blocks tile the 100000 rows.
-/
import proofs.«151540_j48670569398724_1_alg».proof.Proof.Gen.KernelIdeal.Frame
import proofs.«151540_j48670569398724_1_alg».proof.Proof.BodyValues
import proofs.«151540_j48670569398724_1_alg».proof.Proof.GcnSpec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.ScaleFirst

open Cert.KernelIdeal Cert.KernelIdeal.Gen Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point t every row window sits at block (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The feature window's block at point t is rows 10000·t … 10000·t + 9999 of its array. -/
theorem read_rows (c : Dev nD) (t : Fin cfg0.N) (y : S10000x64.Idx) (k : S100000x64.Idx)
    (h0 : (k 0).val = t.val * 10000 + (y 0).val) (h1 : (k 1).val = (y 1).val) :
    (iblk0 V c 0 t : FVec Ideal S10000x64 .f32) y = (V c main_arg0 : FVec Ideal S100000x64 .f32) k := by
  obtain ⟨e0, e1, -, -, -, -⟩ := idx_facts t
  unfold iblk0
  rw [View.read_apply]
  show (V c main_arg0 : FVec Ideal S100000x64 .f32) _ = _
  congr 1
  funext a
  apply Fin.ext
  match a with
  | ⟨0, _⟩ => show win0_0.index t 0 * 10000 + 1 * (y 0).val = (k 0).val; rw [e0, h0]; omega
  | ⟨1, _⟩ => show win0_0.index t 1 * 64 + 1 * (y 1).val = (k 1).val; rw [e1, h1]; omega

/-- The factor window's block at point t is the same rows of the column of factors. -/
theorem read_factors (c : Dev nD) (t : Fin cfg0.N) (y : S10000x1.Idx) (k : S100000x1.Idx)
    (h0 : (k 0).val = t.val * 10000 + (y 0).val) (h1 : (k 1).val = (y 1).val) :
    (iblk0 V c 1 t : FVec Ideal S10000x1 .f32) y = (V c main_v9 : FVec Ideal S100000x1 .f32) k := by
  obtain ⟨-, -, e2, e3, -, -⟩ := idx_facts t
  unfold iblk0
  rw [View.read_apply]
  show (V c main_v9 : FVec Ideal S100000x1 .f32) _ = _
  congr 1
  funext a
  apply Fin.ext
  match a with
  | ⟨0, _⟩ => show win0_1.index t 0 * 10000 + 1 * (y 0).val = (k 0).val; rw [e2, h0]; omega
  | ⟨1, _⟩ => show win0_1.index t 1 * 1 + 1 * (y 1).val = (k 1).val; rw [e3, h1]; omega

/-- What point t writes back is block t of the rows of the features times their nodes' factors. -/
theorem flushed_eq (c : Dev nD) (t : Fin cfg0.N) :
    (dat0 V c).flushed 2 t = ((cfg0.win 2).blk t).view.read (Elt Ideal) (scaleRows (V c main_arg0) (V c main_v9)) := by
  show (cfg0.win 2).cut (grid0.coords t) ((dat0 V c).after 2 t) = _
  rw [after0_2]
  unfold out0_2
  rw [View.canon_unit_zero hz]
  simp only [View.ld_unit_zero (S := S10000x64) hz, View.ld_unit_zero (S := S10000x1) hz]
  obtain ⟨-, -, -, -, e4, e5⟩ := idx_facts t
  refine funext fun (j : S10000x64.Idx) => ?_
  obtain ⟨p, q, rfl⟩ : ∃ (p : Fin 10000) (q : Fin 64), j = ix2 p q := ⟨j 0, j 1, eq_ix2 j⟩
  rw [View.read_apply]
  refine (Cert.BodyValues.scale0_apply (iblk0 V c 0 t) (iblk0 V c 1 t) p q).trans ?_
  have hr : ((((cfg0.win 2).blk t).view.emb (ix2 p q) : S100000x64.Idx) 0).val = t.val * 10000 + p.val := by
    show win0_2.index t 0 * 10000 + 1 * p.val = _; rw [e4]; omega
  have hc : ((((cfg0.win 2).blk t).view.emb (ix2 p q) : S100000x64.Idx) 1).val = q.val := by
    show win0_2.index t 1 * 64 + 1 * q.val = _; rw [e5]; omega
  rw [read_rows V c t (ix2 p q) (((cfg0.win 2).blk t).view.emb (ix2 p q)) hr hc,
    read_factors V c t (ix2 p (0 : Fin 1)) (ix2 (n0 := 100000) (n1 := 1) ((((cfg0.win 2).blk t).view.emb (ix2 p q) : S100000x64.Idx) 0) (0 : Fin 1)) hr rfl]
  rfl

/-- An index of the array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v15).slice (win0_2.rect t)).set ↔ _
  rw [View.set_slice_whole, Rect.mem_set_unit]
  exact Iff.rfl

/-- Row r lies in the block of point r / 10000: the ten blocks tile the array. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  have ht : (i 0).val / 10000 < grid0.N := by rw [hN]; omega
  refine ⟨⟨(i 0).val / 10000, ht⟩, flush0_2 _, ?_⟩
  rw [mem_blk]
  obtain ⟨-, -, -, -, e4, e5⟩ := idx_facts ⟨(i 0).val / 10000, ht⟩
  intro a
  match a with
  | ⟨0, _⟩ =>
    show win0_2.index ⟨(i 0).val / 10000, ht⟩ 0 * 10000 ≤ (i 0).val ∧ (i 0).val < win0_2.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ 1 * 64 ≤ (i 1).val ∧ (i 1).val < win0_2.index ⟨(i 0).val / 10000, ht⟩ 1 * 64 + 64
    rw [e5]; omega

/-- After the region its output array holds every row of the features times its node's factor. -/
theorem final (c : Dev nD) : (dat0 V c).arrAt 2 cfg0.N = scaleRows (V c main_arg0) (V c main_v9) :=
  (dat0 V c).arrAt_eq_of_cover 2 (scaleRows (V c main_arg0) (V c main_v9)) (fun t _ => flushed_eq V c t) cover

end Cert.ScaleFirst
end
-- ==== Proof.ScaleSecond.lean ====
/-
  The second scaling region, for any contents V of the buffers when the region is entered: its output array ends holding
  every row of the first layer's output times its node's source factor. Point t of the grid of 10 works on rows
  10000·t … 10000·t + 9999; what it writes back is that block of the whole-array function, and the ten blocks tile the rows.
-/
import proofs.«151540_j48670569398724_1_alg».proof.Proof.Gen.KernelIdeal.Frame
import proofs.«151540_j48670569398724_1_alg».proof.Proof.BodyValues
import proofs.«151540_j48670569398724_1_alg».proof.Proof.GcnSpec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.ScaleSecond

open Cert.KernelIdeal Cert.KernelIdeal.Gen Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point t every row window sits at block (t, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The feature window's block at point t is rows 10000·t … 10000·t + 9999 of its array. -/
theorem read_rows (c : Dev nD) (t : Fin cfg2.N) (y : S10000x64.Idx) (k : S100000x64.Idx)
    (h0 : (k 0).val = t.val * 10000 + (y 0).val) (h1 : (k 1).val = (y 1).val) :
    (iblk2 V c 0 t : FVec Ideal S10000x64 .f32) y = (V c main_v26 : FVec Ideal S100000x64 .f32) k := by
  obtain ⟨e0, e1, -, -, -, -⟩ := idx_facts t
  unfold iblk2
  rw [View.read_apply]
  show (V c main_v26 : FVec Ideal S100000x64 .f32) _ = _
  congr 1
  funext a
  apply Fin.ext
  match a with
  | ⟨0, _⟩ => show win2_0.index t 0 * 10000 + 1 * (y 0).val = (k 0).val; rw [e0, h0]; omega
  | ⟨1, _⟩ => show win2_0.index t 1 * 64 + 1 * (y 1).val = (k 1).val; rw [e1, h1]; omega

/-- The factor window's block at point t is the same rows of the column of factors. -/
theorem read_factors (c : Dev nD) (t : Fin cfg2.N) (y : S10000x1.Idx) (k : S100000x1.Idx)
    (h0 : (k 0).val = t.val * 10000 + (y 0).val) (h1 : (k 1).val = (y 1).val) :
    (iblk2 V c 1 t : FVec Ideal S10000x1 .f32) y = (V c main_v9 : FVec Ideal S100000x1 .f32) k := by
  obtain ⟨-, -, e2, e3, -, -⟩ := idx_facts t
  unfold iblk2
  rw [View.read_apply]
  show (V c main_v9 : FVec Ideal S100000x1 .f32) _ = _
  congr 1
  funext a
  apply Fin.ext
  match a with
  | ⟨0, _⟩ => show win2_1.index t 0 * 10000 + 1 * (y 0).val = (k 0).val; rw [e2, h0]; omega
  | ⟨1, _⟩ => show win2_1.index t 1 * 1 + 1 * (y 1).val = (k 1).val; rw [e3, h1]; omega

/-- What point t writes back is block t of the rows of the features times their nodes' factors. -/
theorem flushed_eq (c : Dev nD) (t : Fin cfg2.N) :
    (dat2 V c).flushed 2 t = ((cfg2.win 2).blk t).view.read (Elt Ideal) (scaleRows (V c main_v26) (V c main_v9)) := by
  show (cfg2.win 2).cut (grid2.coords t) ((dat2 V c).after 2 t) = _
  rw [after2_2]
  unfold out2_2
  rw [View.canon_unit_zero hz]
  simp only [View.ld_unit_zero (S := S10000x64) hz, View.ld_unit_zero (S := S10000x1) hz]
  obtain ⟨-, -, -, -, e4, e5⟩ := idx_facts t
  refine funext fun (j : S10000x64.Idx) => ?_
  obtain ⟨p, q, rfl⟩ : ∃ (p : Fin 10000) (q : Fin 64), j = ix2 p q := ⟨j 0, j 1, eq_ix2 j⟩
  rw [View.read_apply]
  refine (Cert.BodyValues.scale2_apply (iblk2 V c 0 t) (iblk2 V c 1 t) p q).trans ?_
  have hr : ((((cfg2.win 2).blk t).view.emb (ix2 p q) : S100000x64.Idx) 0).val = t.val * 10000 + p.val := by
    show win2_2.index t 0 * 10000 + 1 * p.val = _; rw [e4]; omega
  have hc : ((((cfg2.win 2).blk t).view.emb (ix2 p q) : S100000x64.Idx) 1).val = q.val := by
    show win2_2.index t 1 * 64 + 1 * q.val = _; rw [e5]; omega
  rw [read_rows V c t (ix2 p q) (((cfg2.win 2).blk t).view.emb (ix2 p q)) hr hc,
    read_factors V c t (ix2 p (0 : Fin 1)) (ix2 (n0 := 100000) (n1 := 1) ((((cfg2.win 2).blk t).view.emb (ix2 p q) : S100000x64.Idx) 0) (0 : Fin 1)) hr rfl]
  rfl

/-- An index of the array is in point t's block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v27).slice (win2_2.rect t)).set ↔ _
  rw [View.set_slice_whole, Rect.mem_set_unit]
  exact Iff.rfl

/-- Row r lies in the block of point r / 10000: the ten blocks tile the array. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  have ht : (i 0).val / 10000 < grid2.N := by rw [hN]; omega
  refine ⟨⟨(i 0).val / 10000, ht⟩, flush2_2 _, ?_⟩
  rw [mem_blk]
  obtain ⟨-, -, -, -, e4, e5⟩ := idx_facts ⟨(i 0).val / 10000, ht⟩
  intro a
  match a with
  | ⟨0, _⟩ =>
    show win2_2.index ⟨(i 0).val / 10000, ht⟩ 0 * 10000 ≤ (i 0).val ∧ (i 0).val < win2_2.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ 1 * 64 ≤ (i 1).val ∧ (i 1).val < win2_2.index ⟨(i 0).val / 10000, ht⟩ 1 * 64 + 64
    rw [e5]; omega

/-- After the region its output array holds every row of the features times its node's factor. -/
theorem final (c : Dev nD) : (dat2 V c).arrAt 2 cfg2.N = scaleRows (V c main_v26) (V c main_v9) :=
  (dat2 V c).arrAt_eq_of_cover 2 (scaleRows (V c main_v26) (V c main_v9)) (fun t _ => flushed_eq V c t) cover

end Cert.ScaleSecond
end
-- ==== Proof.DenseFirst.lean ====
/-
  The first dense region, for any contents V of the buffers when the region is entered: its output array ends holding
  max(((m scaled row by row by the destination factors) · W1 + b1), 0), m the aggregated features. Point t of the grid of
  10 works on rows 10000·t … 10000·t + 9999 with the whole weight matrix and bias row; what it writes back is that block
  of the whole-array function, and the ten blocks tile the 100000 rows.
-/
import proofs.«151540_j48670569398724_1_alg».proof.Proof.Gen.KernelIdeal.Frame
import proofs.«151540_j48670569398724_1_alg».proof.Proof.BodyValues
import proofs.«151540_j48670569398724_1_alg».proof.Proof.GcnSpec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.DenseFirst

open Cert.KernelIdeal Cert.KernelIdeal.Gen Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point t the row windows sit at block (t, 0), the weights and the
    bias row at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregated features' block at point t is rows 10000·t … 10000·t + 9999 of their array. -/
theorem read_rows (c : Dev nD) (t : Fin cfg1.N) (y : S10000x64.Idx) (k : S100000x64.Idx)
    (h0 : (k 0).val = t.val * 10000 + (y 0).val) (h1 : (k 1).val = (y 1).val) :
    (iblk1 V c 0 t : FVec Ideal S10000x64 .f32) y = (V c main_v25 : FVec Ideal S100000x64 .f32) k := by
  obtain ⟨e0, e1, -, -, -, -, -, -, -, -⟩ := idx_facts t
  unfold iblk1
  rw [View.read_apply]
  show (V c main_v25 : FVec Ideal S100000x64 .f32) _ = _
  congr 1
  funext a
  apply Fin.ext
  match a with
  | ⟨0, _⟩ => show win1_0.index t 0 * 10000 + 1 * (y 0).val = (k 0).val; rw [e0, h0]; omega
  | ⟨1, _⟩ => show win1_0.index t 1 * 64 + 1 * (y 1).val = (k 1).val; rw [e1, h1]; omega

/-- The factor window's block at point t is the same rows of the column of factors. -/
theorem read_factors (c : Dev nD) (t : Fin cfg1.N) (y : S10000x1.Idx) (k : S100000x1.Idx)
    (h0 : (k 0).val = t.val * 10000 + (y 0).val) (h1 : (k 1).val = (y 1).val) :
    (iblk1 V c 1 t : FVec Ideal S10000x1 .f32) y = (V c main_v12 : FVec Ideal S100000x1 .f32) k := by
  obtain ⟨-, -, e2, e3, -, -, -, -, -, -⟩ := idx_facts t
  unfold iblk1
  rw [View.read_apply]
  show (V c main_v12 : FVec Ideal S100000x1 .f32) _ = _
  congr 1
  funext a
  apply Fin.ext
  match a with
  | ⟨0, _⟩ => show win1_1.index t 0 * 10000 + 1 * (y 0).val = (k 0).val; rw [e2, h0]; omega
  | ⟨1, _⟩ => show win1_1.index t 1 * 1 + 1 * (y 1).val = (k 1).val; rw [e3, h1]; omega

/-- The weight window's block at every point is the whole weight matrix. -/
theorem read_weights (c : Dev nD) (t : Fin cfg1.N) (y k : S64x64.Idx)
    (h0 : (k 0).val = (y 0).val) (h1 : (k 1).val = (y 1).val) :
    (iblk1 V c 2 t : FVec Ideal S64x64 .f32) y = (V c main_arg3 : FVec Ideal S64x64 .f32) k := by
  obtain ⟨-, -, -, -, e4, e5, -, -, -, -⟩ := idx_facts t
  unfold iblk1
  rw [View.read_apply]
  show (V c main_arg3 : FVec Ideal S64x64 .f32) _ = _
  congr 1
  funext a
  apply Fin.ext
  match a with
  | ⟨0, _⟩ => show win1_2.index t 0 * 64 + 1 * (y 0).val = (k 0).val; rw [e4, h0]; omega
  | ⟨1, _⟩ => show win1_2.index t 1 * 64 + 1 * (y 1).val = (k 1).val; rw [e5, h1]; omega

/-- The bias window's block at every point is the whole bias row. -/
theorem read_bias (c : Dev nD) (t : Fin cfg1.N) (y k : S1x64.Idx)
    (h0 : (k 0).val = (y 0).val) (h1 : (k 1).val = (y 1).val) :
    (iblk1 V c 3 t : FVec Ideal S1x64 .f32) y = (V c main_v13 : FVec Ideal S1x64 .f32) k := by
  obtain ⟨-, -, -, -, -, -, e6, e7, -, -⟩ := idx_facts t
  unfold iblk1
  rw [View.read_apply]
  show (V c main_v13 : FVec Ideal S1x64 .f32) _ = _
  congr 1
  funext a
  apply Fin.ext
  match a with
  | ⟨0, _⟩ => show win1_3.index t 0 * 1 + 1 * (y 0).val = (k 0).val; rw [e6, h0]; omega
  | ⟨1, _⟩ => show win1_3.index t 1 * 64 + 1 * (y 1).val = (k 1).val; rw [e7, h1]; omega

/-- What point t writes back is block t of the whole-array function: at row r = 10000·t + p and column q the body's
    sum over k of (x[r,k] · s[r,0]) · w[k,q], plus b[0,q], then the maximum with the zero word's number. -/
theorem flushed_eq (c : Dev nD) (t : Fin cfg1.N) :
    (dat1 V c).flushed 4 t = ((cfg1.win 4).blk t).view.read (Elt Ideal) (reluRows (affineRows (scaleRows (V c main_v25) (V c main_v12)) (V c main_arg3) (V c main_v13))) := by
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz, View.ld_unit_zero (S := S64x64) hz,
    View.ld_unit_zero (S := S1x64) hz]
  obtain ⟨-, -, -, -, -, -, -, -, e8, e9⟩ := idx_facts t
  refine funext fun (j : S10000x64.Idx) => ?_
  obtain ⟨p, q, rfl⟩ : ∃ (p : Fin 10000) (q : Fin 64), j = ix2 p q := ⟨j 0, j 1, eq_ix2 j⟩
  rw [View.read_apply]
  refine (Cert.BodyValues.affine_relu_apply (iblk1 V c 0 t) (iblk1 V c 1 t) (iblk1 V c 2 t) (iblk1 V c 3 t) p q).trans ?_
  have hr : ((((cfg1.win 4).blk t).view.emb (ix2 p q) : S100000x64.Idx) 0).val = t.val * 10000 + p.val := by
    show win1_4.index t 0 * 10000 + 1 * p.val = _; rw [e8]; omega
  have hc : ((((cfg1.win 4).blk t).view.emb (ix2 p q) : S100000x64.Idx) 1).val = q.val := by
    show win1_4.index t 1 * 64 + 1 * q.val = _; rw [e9]; omega
  have e_rows : ∀ k : Fin 64, (iblk1 V c 0 t : FVec Ideal S10000x64 .f32) (ix2 p k)
      = (V c main_v25 : FVec Ideal S100000x64 .f32) (ix2 (n0 := 100000) (n1 := 64) ((((cfg1.win 4).blk t).view.emb (ix2 p q) : S100000x64.Idx) 0) k) :=
    fun k => read_rows V c t (ix2 p k) _ hr rfl
  have e_fac : (iblk1 V c 1 t : FVec Ideal S10000x1 .f32) (ix2 p (0 : Fin 1))
      = (V c main_v12 : FVec Ideal S100000x1 .f32) (ix2 (n0 := 100000) (n1 := 1) ((((cfg1.win 4).blk t).view.emb (ix2 p q) : S100000x64.Idx) 0) (0 : Fin 1)) :=
    read_factors V c t (ix2 p (0 : Fin 1)) _ hr rfl
  have e_w : ∀ k : Fin 64, (iblk1 V c 2 t : FVec Ideal S64x64 .f32) (ix2 k q)
      = (V c main_arg3 : FVec Ideal S64x64 .f32) (ix2 (n0 := 64) (n1 := 64) k ((((cfg1.win 4).blk t).view.emb (ix2 p q) : S100000x64.Idx) 1)) :=
    fun k => read_weights V c t (ix2 k q) _ rfl hc
  have e_b : (iblk1 V c 3 t : FVec Ideal S1x64 .f32) (ix2 (0 : Fin 1) q)
      = (V c main_v13 : FVec Ideal S1x64 .f32) (ix2 (n0 := 1) (n1 := 64) (0 : Fin 1) ((((cfg1.win 4).blk t).view.emb (ix2 p q) : S100000x64.Idx) 1)) :=
    read_bias V c t (ix2 (0 : Fin 1) q) _ rfl hc
  simp only [e_rows, e_fac, e_w, e_b]
  rfl

/-- An index of the array is in point t's block iff each coordinate is in the block's range on its axis. -/
theorem mem_blk (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v26).slice (win1_4.rect t)).set ↔ _
  rw [View.set_slice_whole, Rect.mem_set_unit]
  exact Iff.rfl

/-- Row r lies in the block of point r / 10000: the ten blocks tile the array. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : grid1.N = 10 := N_1
  have ht : (i 0).val / 10000 < grid1.N := by rw [hN]; omega
  refine ⟨⟨(i 0).val / 10000, ht⟩, flush1_4 _, ?_⟩
  rw [mem_blk]
  obtain ⟨-, -, -, -, -, -, -, -, e8, e9⟩ := idx_facts ⟨(i 0).val / 10000, ht⟩
  intro a
  match a with
  | ⟨0, _⟩ =>
    show win1_4.index ⟨(i 0).val / 10000, ht⟩ 0 * 10000 ≤ (i 0).val ∧ (i 0).val < win1_4.index ⟨(i 0).val / 10000, ht⟩ 0 * 10000 + 10000
    rw [e8]; show (i 0).val / 10000 * 10000 ≤ (i 0).val ∧ (i 0).val < (i 0).val / 10000 * 10000 + 10000; omega
  | ⟨1, _⟩ =>
    show win1_4.index ⟨(i 0).val / 10000, ht⟩ 1 * 64 ≤ (i 1).val ∧ (i 1).val < win1_4.index ⟨(i 0).val / 10000, ht⟩ 1 * 64 + 64
    rw [e9]; omega

/-- After the region its output array is the whole-array function of the arrays the region found. -/
theorem final (c : Dev nD) : (dat1 V c).arrAt 4 cfg1.N = reluRows (affineRows (scaleRows (V c main_v25) (V c main_v12)) (V c main_arg3) (V c main_v13)) :=
  (dat1 V c).arrAt_eq_of_cover 4 (reluRows (affineRows (scaleRows (V c main_v25) (V c main_v12)) (V c main_arg3) (V c main_v13))) (fun t _ => flushed_eq V c t) cover

end Cert.DenseFirst
end
-- ==== Proof.DenseSecond.lean ====
/-
  The second dense region, for any contents V of the buffers when the region is entered: its output array ends holding
  (m scaled row by row by the destination factors) · W2 + b2, m the second layer's aggregated features. Point t of the
  grid of 10 works on rows 10000·t … 10000·t + 9999 with the whole weight matrix and bias row; what it writes back is that
  block of the whole-array function, and the ten blocks tile the 100000 rows.
-/
import proofs.«151540_j48670569398724_1_alg».proof.Proof.Gen.KernelIdeal.Frame
import proofs.«151540_j48670569398724_1_alg».proof.Proof.BodyValues
import proofs.«151540_j48670569398724_1_alg».proof.Proof.GcnSpec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.DenseSecond

open Cert.KernelIdeal Cert.KernelIdeal.Gen Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point t the row windows sit at block (t, 0), the weights and the
    bias row at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregated features' block at point t is rows 10000·t … 10000·t + 9999 of their array. -/
theorem read_rows (c : Dev nD) (t : Fin cfg3.N) (y : S10000x64.Idx) (k : S100000x64.Idx)
    (h0 : (k 0).val = t.val * 10000 + (y 0).val) (h1 : (k 1).val = (y 1).val) :
    (iblk3 V c 0 t : FVec Ideal S10000x64 .f32) y = (V c main_v37 : FVec Ideal S100000x64 .f32) k := by
  obtain ⟨e0, e1, -, -, -, -, -, -, -, -⟩ := idx_facts t
  unfold iblk3
  rw [View.read_apply]
  show (V c main_v37 : FVec Ideal S100000x64 .f32) _ = _
  congr 1
  funext a
  apply Fin.ext
  match a with
  | ⟨0, _⟩ => show win3_0.index t 0 * 10000 + 1 * (y 0).val = (k 0).val; rw [e0, h0]; omega
  | ⟨1, _⟩ => show win3_0.index t 1 * 64 + 1 * (y 1).val = (k 1).val; rw [e1, h1]; omega

/-- The factor window's block at point t is the same rows of the column of factors. -/
theorem read_factors (c : Dev nD) (t : Fin cfg3.N) (y : S10000x1.Idx) (k : S100000x1.Idx)
    (h0 : (k 0).val = t.val * 10000 + (y 0).val) (h1 : (k 1).val = (y 1).val) :
    (iblk3 V c 1 t : FVec Ideal S10000x1 .f32) y = (V c main_v12 : FVec Ideal S100000x1 .f32) k := by
  obtain ⟨-, -, e2, e3, -, -, -, -, -, -⟩ := idx_facts t
  unfold iblk3
  rw [View.read_apply]
  show (V c main_v12 : FVec Ideal S100000x1 .f32) _ = _
  congr 1
  funext a
  apply Fin.ext
  match a with
  | ⟨0, _⟩ => show win3_1.index t 0 * 10000 + 1 * (y 0).val = (k 0).val; rw [e2, h0]; omega
  | ⟨1, _⟩ => show win3_1.index t 1 * 1 + 1 * (y 1).val = (k 1).val; rw [e3, h1]; omega

/-- The weight window's block at every point is the whole weight matrix. -/
theorem read_weights (c : Dev nD) (t : Fin cfg3.N) (y k : S64x64.Idx)
    (h0 : (k 0).val = (y 0).val) (h1 : (k 1).val = (y 1).val) :
    (iblk3 V c 2 t : FVec Ideal S64x64 .f32) y = (V c main_arg5 : FVec Ideal S64x64 .f32) k := by
  obtain ⟨-, -, -, -, e4, e5, -, -, -, -⟩ := idx_facts t
  unfold iblk3
  rw [View.read_apply]
  show (V c main_arg5 : FVec Ideal S64x64 .f32) _ = _
  congr 1
  funext a
  apply Fin.ext
  match a with
  | ⟨0, _⟩ => show win3_2.index t 0 * 64 + 1 * (y 0).val = (k 0).val; rw [e4, h0]; omega
  | ⟨1, _⟩ => show win3_2.index t 1 * 64 + 1 * (y 1).val = (k 1).val; rw [e5, h1]; omega

/-- The bias window's block at every point is the whole bias row. -/
theorem read_bias (c : Dev nD) (t : Fin cfg3.N) (y k : S1x64.Idx)
    (h0 : (k 0).val = (y 0).val) (h1 : (k 1).val = (y 1).val) :
    (iblk3 V c 3 t : FVec Ideal S1x64 .f32) y = (V c main_v14 : FVec Ideal S1x64 .f32) k := by
  obtain ⟨-, -, -, -, -, -, e6, e7, -, -⟩ := idx_facts t
  unfold iblk3
  rw [View.read_apply]
  show (V c main_v14 : FVec Ideal S1x64 .f32) _ = _
  congr 1
  funext a
  apply Fin.ext
  match a with
  | ⟨0, _⟩ => show win3_3.index t 0 * 1 + 1 * (y 0).val = (k 0).val; rw [e6, h0]; omega
  | ⟨1, _⟩ => show win3_3.index t 1 * 64 + 1 * (y 1).val = (k 1).val; rw [e7, h1]; omega

/-- What point t writes back is block t of the whole-array function: at row r = 10000·t + p and column q the body's
    sum over k of (x[r,k] · s[r,0]) · w[k,q], plus b[0,q]. -/
theorem flushed_eq (c : Dev nD) (t : Fin cfg3.N) :
    (dat3 V c).flushed 4 t = ((cfg3.win 4).blk t).view.read (Elt Ideal) (affineRows (scaleRows (V c main_v37) (V c main_v12)) (V c main_arg5) (V c main_v14)) := by
  show (cfg3.win 4).cut (grid3.coords t) ((dat3 V c).after 4 t) = _
  rw [after3_4]
  unfold out3_4
  rw [View.canon_unit_zero hz]
  simp only [View.ld_unit_zero (S := S10000x64) hz, View.ld_unit_zero (S := S10000x1) hz, View.ld_unit_zero (S := S64x64) hz,
    View.ld_unit_zero (S := S1x64) hz]
  obtain ⟨-, -, -, -, -, -, -, -, e8, e9⟩ := idx_facts t
  refine funext fun (j : S10000x64.Idx) => ?_
  obtain ⟨p, q, rfl⟩ : ∃ (p : Fin 10000) (q : Fin 64), j = ix2 p q := ⟨j 0, j 1, eq_ix2 j⟩
  rw [View.read_apply]
  refine (Cert.BodyValues.affine_apply (iblk3 V c 0 t) (iblk3 V c 1 t) (iblk3 V c 2 t) (iblk3 V c 3 t) p q).trans ?_
  have hr : ((((cfg3.win 4).blk t).view.emb (ix2 p q) : S100000x64.Idx) 0).val = t.val * 10000 + p.val := by
    show win3_4.index t 0 * 10000 + 1 * p.val = _; rw [e8]; omega
  have hc : ((((cfg3.win 4).blk t).view.emb (ix2 p q) : S100000x64.Idx) 1).val = q.val := by
    show win3_4.index t 1 * 64 + 1 * q.val = _; rw [e9]; omega
  have e_rows : ∀ k : Fin 64, (iblk3 V c 0 t : FVec Ideal S10000x64 .f32) (ix2 p k)
      = (V c main_v37 : FVec Ideal S100000x64 .f32) (ix2 (n0 := 100000) (n1 := 64) ((((cfg3.win 4).blk t).view.emb (ix2 p q) : S100000x64.Idx) 0) k) :=
    fun k => read_rows V c t (ix2 p k) _ hr rfl
  have e_fac : (iblk3 V c 1 t : FVec Ideal S10000x1 .f32) (ix2 p (0 : Fin 1))
      = (V c main_v12 : FVec Ideal S100000x1 .f32) (ix2 (n0 := 100000) (n1 := 1) ((((cfg3.win 4).blk t).view.emb (ix2 p q) : S100000x64.Idx) 0) (0 : Fin 1)) :=
    read_factors V c t (ix2 p (0 : Fin 1)) _ hr rfl
  have e_w : ∀ k : Fin 64, (iblk3 V c 2 t : FVec Ideal S64x64 .f32) (ix2 k q)
      = (V c main_arg5 : FVec Ideal S64x64 .f32) (ix2 (n0 := 64) (n1 := 64) k ((((cfg3.win 4).blk t).view.emb (ix2 p q) : S100000x64.Idx) 1)) :=
    fun k => read_weights V c t (ix2 k q) _ rfl hc
  have e_b : (iblk3 V c 3 t : FVec Ideal S1x64 .f32) (ix2 (0 : Fin 1) q)
      = (V c main_v14 : FVec Ideal S1x64 .f32) (ix2 (n0 := 1) (n1 := 64) (0 : Fin 1) ((((cfg3.win 4).blk t).view.emb (ix2 p q) : S100000x64.Idx) 1)) :=
    read_bias V c t (ix2 (0 : Fin 1) q) _ rfl hc
  simp only [e_rows, e_fac, e_w, e_b]
  rfl

/-- An index of the array is in point t's block iff each coordinate is in the block's range on its axis. -/
theorem mem_blk (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v38).slice (win3_4.rect t)).set ↔ _
  rw [View.set_slice_whole, Rect.mem_set_unit]
  exact Iff.rfl

/-- Row r lies in the block of point r / 10000: the ten blocks tile the array. -/
theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : grid3.N = 10 := N_3
  have ht : (i 0).val / 10000 < grid3.N := by rw [hN]; omega
  refine ⟨⟨(i 0).val / 10000, ht⟩, flush3_4 _, ?_⟩
  rw [mem_blk]
  obtain ⟨-, -, -, -, -, -, -, -, e8, e9⟩ := idx_facts ⟨(i 0).val / 10000, ht⟩
  intro a
  match a with
  | ⟨0, _⟩ =>
    show win3_4.index ⟨(i 0).val / 10000, ht⟩ 0 * 10000 ≤ (i 0).val ∧ (i 0).val < win3_4.index ⟨(i 0).val / 10000, ht⟩ 0 * 10000 + 10000
    rw [e8]; show (i 0).val / 10000 * 10000 ≤ (i 0).val ∧ (i 0).val < (i 0).val / 10000 * 10000 + 10000; omega
  | ⟨1, _⟩ =>
    show win3_4.index ⟨(i 0).val / 10000, ht⟩ 1 * 64 ≤ (i 1).val ∧ (i 1).val < win3_4.index ⟨(i 0).val / 10000, ht⟩ 1 * 64 + 64
    rw [e9]; omega

/-- After the region its output array is the whole-array function of the arrays the region found. -/
theorem final (c : Dev nD) : (dat3 V c).arrAt 4 cfg3.N = affineRows (scaleRows (V c main_v37) (V c main_v12)) (V c main_arg5) (V c main_v14) :=
  (dat3 V c).arrAt_eq_of_cover 4 (affineRows (scaleRows (V c main_v37) (V c main_v12)) (V c main_arg5) (V c main_v14)) (fun t _ => flushed_eq V c t) cover

end Cert.DenseSecond
end
-- ==== Proof.HostFold.lean ====
/-
  The kernel program's host stretches read operation by operation, for any float values: what each leaves in the buffers
  that matter, from the contents the stretch starts at.

  From the launch memory the first stretches leave the two columns of node factors (the reciprocal square root of the
  clipped segment sum of ones over the source ids, and over the destination ids, reshaped to columns), the two bias
  vectors reshaped to rows, and the arguments untouched. The stretch between the first scaling region and the first dense
  region gathers the scaled rows by source node and segment-sums them by destination node; the stretch before the last
  region does the same for the second layer. A buffer a stretch does not write keeps its contents.
-/
import proofs.«151540_j48670569398724_1_alg».proof.Proof.Gen.KernelIdeal.Frame
import proofs.«151540_j48670569398724_1_alg».proof.Proof.GcnSpec
import Idealize.ShloMosaic.Lib.StableHlo.Run

set_option maxRecDepth 16384

noncomputable section

open Idealize.ShloMosaic Idealize.ShloMosaic.TcCoe Idealize.SL.Sem Idealize.ShloMosaic.StableHlo

namespace Cert.HostFold

open Cert.KernelIdeal Cert.KernelIdeal.Gen Cert.GcnSpec

variable {F : FTy → Type} [FloatOps F]
variable (m : (ℓ : Loc nD τ sig) → Buf (Elt F) ℓ) (ρ : Dev nD → PrngReg) (c : Dev nD)

/-! ## Before the first region: the host stretches from the launch -/
theorem W5_main_v9 : W5 m ρ c (Proc.devRef .tc main_v9) = colOf (degNorm (F := F) (m ((c : Thread nD τ).loc main_arg1))) := by
  simp only [W5, W4, W3, W2, W1, hostOps0, hostOps0_1, hostOps0_2, hostOps0_3, hostOps0_4]
  after_results
  all_goals rfl
theorem W5_main_v12 : W5 m ρ c (Proc.devRef .tc main_v12) = colOf (degNorm (F := F) (m ((c : Thread nD τ).loc main_arg2))) := by
  simp only [W5, W4, W3, W2, W1, hostOps0, hostOps0_1, hostOps0_2, hostOps0_3, hostOps0_4]
  after_results
  all_goals rfl
theorem W5_main_v13 : W5 m ρ c (Proc.devRef .tc main_v13) = rowOf (F := F) (m ((c : Thread nD τ).loc main_arg4)) := by
  simp only [W5, W4, W3, W2, W1, hostOps0, hostOps0_1, hostOps0_2, hostOps0_3, hostOps0_4]
  after_results
  all_goals rfl
theorem W5_main_v14 : W5 m ρ c (Proc.devRef .tc main_v14) = rowOf (F := F) (m ((c : Thread nD τ).loc main_arg6)) := by
  simp only [W5, W4, W3, W2, W1, hostOps0, hostOps0_1, hostOps0_2, hostOps0_3, hostOps0_4]
  after_results
  all_goals rfl
theorem W5_main_arg0 : W5 m ρ c (Proc.devRef .tc main_arg0) = (m ((c : Thread nD τ).loc main_arg0)) := by
  simp only [W5, W4, W3, W2, W1, hostOps0, hostOps0_1, hostOps0_2, hostOps0_3, hostOps0_4]
  after_results
  all_goals rfl
theorem W5_main_arg1 : W5 m ρ c (Proc.devRef .tc main_arg1) = (m ((c : Thread nD τ).loc main_arg1)) := by
  simp only [W5, W4, W3, W2, W1, hostOps0, hostOps0_1, hostOps0_2, hostOps0_3, hostOps0_4]
  after_results
  all_goals rfl
theorem W5_main_arg2 : W5 m ρ c (Proc.devRef .tc main_arg2) = (m ((c : Thread nD τ).loc main_arg2)) := by
  simp only [W5, W4, W3, W2, W1, hostOps0, hostOps0_1, hostOps0_2, hostOps0_3, hostOps0_4]
  after_results
  all_goals rfl
theorem W5_main_arg3 : W5 m ρ c (Proc.devRef .tc main_arg3) = (m ((c : Thread nD τ).loc main_arg3)) := by
  simp only [W5, W4, W3, W2, W1, hostOps0, hostOps0_1, hostOps0_2, hostOps0_3, hostOps0_4]
  after_results
  all_goals rfl
theorem W5_main_arg5 : W5 m ρ c (Proc.devRef .tc main_arg5) = (m ((c : Thread nD τ).loc main_arg5)) := by
  simp only [W5, W4, W3, W2, W1, hostOps0, hostOps0_1, hostOps0_2, hostOps0_3, hostOps0_4]
  after_results
  all_goals rfl

/-! ## The first gather and segment sum -/
theorem W7_main_v25 : W7 m ρ c (Proc.devRef .tc main_v25)
    = aggregate (F := F) (W6 m ρ c (Proc.devRef .tc main_v15)) (W6 m ρ c (Proc.devRef .tc main_arg1)) (W6 m ρ c (Proc.devRef .tc main_arg2)) := by
  simp only [W7, hostOps1]
  after_results
  all_goals rfl
theorem W7_main_v9 : W7 m ρ c (Proc.devRef .tc main_v9) = W6 m ρ c (Proc.devRef .tc main_v9) := by
  simp only [W7, hostOps1]
  after_results
  all_goals rfl
theorem W7_main_v12 : W7 m ρ c (Proc.devRef .tc main_v12) = W6 m ρ c (Proc.devRef .tc main_v12) := by
  simp only [W7, hostOps1]
  after_results
  all_goals rfl
theorem W7_main_v13 : W7 m ρ c (Proc.devRef .tc main_v13) = W6 m ρ c (Proc.devRef .tc main_v13) := by
  simp only [W7, hostOps1]
  after_results
  all_goals rfl
theorem W7_main_v14 : W7 m ρ c (Proc.devRef .tc main_v14) = W6 m ρ c (Proc.devRef .tc main_v14) := by
  simp only [W7, hostOps1]
  after_results
  all_goals rfl
theorem W7_main_arg1 : W7 m ρ c (Proc.devRef .tc main_arg1) = W6 m ρ c (Proc.devRef .tc main_arg1) := by
  simp only [W7, hostOps1]
  after_results
  all_goals rfl
theorem W7_main_arg2 : W7 m ρ c (Proc.devRef .tc main_arg2) = W6 m ρ c (Proc.devRef .tc main_arg2) := by
  simp only [W7, hostOps1]
  after_results
  all_goals rfl
theorem W7_main_arg3 : W7 m ρ c (Proc.devRef .tc main_arg3) = W6 m ρ c (Proc.devRef .tc main_arg3) := by
  simp only [W7, hostOps1]
  after_results
  all_goals rfl
theorem W7_main_arg5 : W7 m ρ c (Proc.devRef .tc main_arg5) = W6 m ρ c (Proc.devRef .tc main_arg5) := by
  simp only [W7, hostOps1]
  after_results
  all_goals rfl

/-! ## The second gather and segment sum -/
theorem W10_main_v37 : W10 m ρ c (Proc.devRef .tc main_v37)
    = aggregate (F := F) (W9 m ρ c (Proc.devRef .tc main_v27)) (W9 m ρ c (Proc.devRef .tc main_arg1)) (W9 m ρ c (Proc.devRef .tc main_arg2)) := by
  simp only [W10, hostOps3]
  after_results
  all_goals rfl
theorem W10_main_v12 : W10 m ρ c (Proc.devRef .tc main_v12) = W9 m ρ c (Proc.devRef .tc main_v12) := by
  simp only [W10, hostOps3]
  after_results
  all_goals rfl
theorem W10_main_v14 : W10 m ρ c (Proc.devRef .tc main_v14) = W9 m ρ c (Proc.devRef .tc main_v14) := by
  simp only [W10, hostOps3]
  after_results
  all_goals rfl
theorem W10_main_arg5 : W10 m ρ c (Proc.devRef .tc main_arg5) = W9 m ρ c (Proc.devRef .tc main_arg5) := by
  simp only [W10, hostOps3]
  after_results
  all_goals rfl

end Cert.HostFold

end
-- ==== Proof.KernelFold.lean ====
/-
  The kernel program's fold read back: what each buffer that matters holds at each boundary between the program's
  segments, as a whole array, down to the result.

  Before the first region the host stretches leave the two columns of node factors, the two bias rows, and the arguments
  untouched. The first scaling region leaves the features scaled by the source factors; the host stretch after it gathers
  and segment-sums them along the edges; the first dense region leaves max((· scaled by the destination factors)·W1 + b1, 0);
  the second scaling region, the second host stretch and the second dense region repeat this without the maximum. A buffer
  no segment writes keeps its contents across the segment. Each region's array is its whole-array function of what the
  region found (the four region modules); each host stretch is read operation by operation, for any float values (the host fold), and used here at exact arithmetic.
-/
import proofs.«151540_j48670569398724_1_alg».proof.Proof.Gen.KernelIdeal.Frame
import proofs.«151540_j48670569398724_1_alg».proof.Proof.ScaleFirst
import proofs.«151540_j48670569398724_1_alg».proof.Proof.ScaleSecond
import proofs.«151540_j48670569398724_1_alg».proof.Proof.DenseFirst
import proofs.«151540_j48670569398724_1_alg».proof.Proof.DenseSecond
import proofs.«151540_j48670569398724_1_alg».proof.Proof.GcnSpec
import proofs.«151540_j48670569398724_1_alg».proof.Proof.HostFold

set_option maxRecDepth 16384

noncomputable section

open Idealize.ShloMosaic Idealize.ShloMosaic.TcCoe Idealize.SL.Sem Idealize.ShloMosaic.StableHlo

namespace Cert.KernelFold

open Cert.KernelIdeal Cert.KernelIdeal.Gen Cert.GcnSpec

variable (m : (ℓ : Loc nD τ sig) → Buf (Elt Ideal) ℓ) (ρ : Dev nD → PrngReg) (c : Dev nD)

/-! ## The arrays by name -/

/-- The node features. -/
abbrev feat : FVec Ideal S100000x64 .f32 := m ((c : Thread nD τ).loc main_arg0)
/-- The edges' source node ids. -/
abbrev srcIds : Vec Ideal S1600000 .i32 := m ((c : Thread nD τ).loc main_arg1)
/-- The edges' destination node ids. -/
abbrev dstIds : Vec Ideal S1600000 .i32 := m ((c : Thread nD τ).loc main_arg2)
/-- The first layer's weights and bias, the second layer's weights and bias. -/
abbrev w1 : FVec Ideal S64x64 .f32 := m ((c : Thread nD τ).loc main_arg3)
abbrev b1 : FVec Ideal S64 .f32 := m ((c : Thread nD τ).loc main_arg4)
abbrev w2 : FVec Ideal S64x64 .f32 := m ((c : Thread nD τ).loc main_arg5)
abbrev b2 : FVec Ideal S64 .f32 := m ((c : Thread nD τ).loc main_arg6)
/-- The source-side and destination-side node factors, as columns. -/
abbrev ns : FVec Ideal S100000x1 .f32 := colOf (degNorm (F := Ideal) (srcIds m c))
abbrev nd : FVec Ideal S100000x1 .f32 := colOf (degNorm (F := Ideal) (dstIds m c))
/-- The features scaled by the source factors; aggregated along the edges; the first layer's output; that scaled;
    aggregated. -/
abbrev h0 : FVec Ideal S100000x64 .f32 := scaleRows (feat m c) (ns m c)
abbrev m1 : FVec Ideal S100000x64 .f32 := aggregate (F := Ideal) (h0 m c) (srcIds m c) (dstIds m c)
abbrev h1 : FVec Ideal S100000x64 .f32 := reluRows (affineRows (scaleRows (m1 m c) (nd m c)) (w1 m c) (rowOf (b1 m c)))
abbrev h1s : FVec Ideal S100000x64 .f32 := scaleRows (h1 m c) (ns m c)
abbrev m2 : FVec Ideal S100000x64 .f32 := aggregate (F := Ideal) (h1s m c) (srcIds m c) (dstIds m c)
abbrev out : FVec Ideal S100000x64 .f32 := affineRows (scaleRows (m2 m c) (nd m c)) (w2 m c) (rowOf (b2 m c))

/-- The last array is the two-layer function of the arguments. -/
theorem out_eq : out m c = result (feat m c) (srcIds m c) (dstIds m c) (w1 m c) (b1 m c) (w2 m c) (b2 m c) := rfl

/-! ## Before the first region -/
theorem W5_main_v9 : W5 m ρ c (Proc.devRef .tc main_v9) = ns m c := Cert.HostFold.W5_main_v9 (F := Ideal) m ρ c
theorem W5_main_v12 : W5 m ρ c (Proc.devRef .tc main_v12) = nd m c := Cert.HostFold.W5_main_v12 (F := Ideal) m ρ c
theorem W5_main_v13 : W5 m ρ c (Proc.devRef .tc main_v13) = rowOf (b1 m c) := Cert.HostFold.W5_main_v13 (F := Ideal) m ρ c
theorem W5_main_v14 : W5 m ρ c (Proc.devRef .tc main_v14) = rowOf (b2 m c) := Cert.HostFold.W5_main_v14 (F := Ideal) m ρ c
theorem W5_main_arg0 : W5 m ρ c (Proc.devRef .tc main_arg0) = feat m c := Cert.HostFold.W5_main_arg0 (F := Ideal) m ρ c
theorem W5_main_arg1 : W5 m ρ c (Proc.devRef .tc main_arg1) = srcIds m c := Cert.HostFold.W5_main_arg1 (F := Ideal) m ρ c
theorem W5_main_arg2 : W5 m ρ c (Proc.devRef .tc main_arg2) = dstIds m c := Cert.HostFold.W5_main_arg2 (F := Ideal) m ρ c
theorem W5_main_arg3 : W5 m ρ c (Proc.devRef .tc main_arg3) = w1 m c := Cert.HostFold.W5_main_arg3 (F := Ideal) m ρ c
theorem W5_main_arg5 : W5 m ρ c (Proc.devRef .tc main_arg5) = w2 m c := Cert.HostFold.W5_main_arg5 (F := Ideal) m ρ c

/-! ## After the first scaling region -/
theorem W6_main_v15 : W6 m ρ c (Proc.devRef .tc main_v15) = h0 m c :=
  (W6_arr m ρ c 2).trans ((Cert.ScaleFirst.final (V5 m ρ) c).trans
    (congrArg₂ scaleRows (W5_main_arg0 m ρ c) (W5_main_v9 m ρ c)))
/-- The source factors' column is an input array of the region: a region leaves its input arrays as it found them. -/
theorem W6_main_v9 : W6 m ρ c (Proc.devRef .tc main_v9) = ns m c :=
  ((W6_arr m ρ c 1).trans (((dat0 (V5 m ρ) c).arrAt_in 1 rfl _).trans (A_eq0 (V5 m ρ) c 1))).trans (W5_main_v9 m ρ c)
theorem W6_main_v12 : W6 m ρ c (Proc.devRef .tc main_v12) = nd m c := (W6_of_ne m ρ c main_v12 (by decide)).trans (W5_main_v12 m ρ c)
theorem W6_main_v13 : W6 m ρ c (Proc.devRef .tc main_v13) = rowOf (b1 m c) := (W6_of_ne m ρ c main_v13 (by decide)).trans (W5_main_v13 m ρ c)
theorem W6_main_v14 : W6 m ρ c (Proc.devRef .tc main_v14) = rowOf (b2 m c) := (W6_of_ne m ρ c main_v14 (by decide)).trans (W5_main_v14 m ρ c)
theorem W6_main_arg1 : W6 m ρ c (Proc.devRef .tc main_arg1) = srcIds m c := (W6_of_ne m ρ c main_arg1 (by decide)).trans (W5_main_arg1 m ρ c)
theorem W6_main_arg2 : W6 m ρ c (Proc.devRef .tc main_arg2) = dstIds m c := (W6_of_ne m ρ c main_arg2 (by decide)).trans (W5_main_arg2 m ρ c)
theorem W6_main_arg3 : W6 m ρ c (Proc.devRef .tc main_arg3) = w1 m c := (W6_of_ne m ρ c main_arg3 (by decide)).trans (W5_main_arg3 m ρ c)
theorem W6_main_arg5 : W6 m ρ c (Proc.devRef .tc main_arg5) = w2 m c := (W6_of_ne m ρ c main_arg5 (by decide)).trans (W5_main_arg5 m ρ c)

/-! ## After the first gather and segment sum -/
theorem W7_main_v25 : W7 m ρ c (Proc.devRef .tc main_v25) = m1 m c :=
  (Cert.HostFold.W7_main_v25 (F := Ideal) m ρ c).trans (by rw [W6_main_v15, W6_main_arg1, W6_main_arg2])
theorem W7_main_v9 : W7 m ρ c (Proc.devRef .tc main_v9) = ns m c := (Cert.HostFold.W7_main_v9 (F := Ideal) m ρ c).trans (W6_main_v9 m ρ c)
theorem W7_main_v12 : W7 m ρ c (Proc.devRef .tc main_v12) = nd m c := (Cert.HostFold.W7_main_v12 (F := Ideal) m ρ c).trans (W6_main_v12 m ρ c)
theorem W7_main_v13 : W7 m ρ c (Proc.devRef .tc main_v13) = rowOf (b1 m c) := (Cert.HostFold.W7_main_v13 (F := Ideal) m ρ c).trans (W6_main_v13 m ρ c)
theorem W7_main_v14 : W7 m ρ c (Proc.devRef .tc main_v14) = rowOf (b2 m c) := (Cert.HostFold.W7_main_v14 (F := Ideal) m ρ c).trans (W6_main_v14 m ρ c)
theorem W7_main_arg1 : W7 m ρ c (Proc.devRef .tc main_arg1) = srcIds m c := (Cert.HostFold.W7_main_arg1 (F := Ideal) m ρ c).trans (W6_main_arg1 m ρ c)
theorem W7_main_arg2 : W7 m ρ c (Proc.devRef .tc main_arg2) = dstIds m c := (Cert.HostFold.W7_main_arg2 (F := Ideal) m ρ c).trans (W6_main_arg2 m ρ c)
theorem W7_main_arg3 : W7 m ρ c (Proc.devRef .tc main_arg3) = w1 m c := (Cert.HostFold.W7_main_arg3 (F := Ideal) m ρ c).trans (W6_main_arg3 m ρ c)
theorem W7_main_arg5 : W7 m ρ c (Proc.devRef .tc main_arg5) = w2 m c := (Cert.HostFold.W7_main_arg5 (F := Ideal) m ρ c).trans (W6_main_arg5 m ρ c)

/-! ## After the first dense region -/
theorem W8_main_v26 : W8 m ρ c (Proc.devRef .tc main_v26) = h1 m c :=
  (W8_arr m ρ c 4).trans ((Cert.DenseFirst.final (V7 m ρ) c).trans
    (congrArg reluRows (congr (congrArg₂ affineRows (congrArg₂ scaleRows (W7_main_v25 m ρ c) (W7_main_v12 m ρ c)) (W7_main_arg3 m ρ c)) (W7_main_v13 m ρ c))))
theorem W8_main_v9 : W8 m ρ c (Proc.devRef .tc main_v9) = ns m c := (W8_of_ne m ρ c main_v9 (by decide)).trans (W7_main_v9 m ρ c)
/-- The destination factors' column is an input array of the region. -/
theorem W8_main_v12 : W8 m ρ c (Proc.devRef .tc main_v12) = nd m c :=
  ((W8_arr m ρ c 1).trans (((dat1 (V7 m ρ) c).arrAt_in 1 rfl _).trans (A_eq1 (V7 m ρ) c 1))).trans (W7_main_v12 m ρ c)
theorem W8_main_v14 : W8 m ρ c (Proc.devRef .tc main_v14) = rowOf (b2 m c) := (W8_of_ne m ρ c main_v14 (by decide)).trans (W7_main_v14 m ρ c)
theorem W8_main_arg1 : W8 m ρ c (Proc.devRef .tc main_arg1) = srcIds m c := (W8_of_ne m ρ c main_arg1 (by decide)).trans (W7_main_arg1 m ρ c)
theorem W8_main_arg2 : W8 m ρ c (Proc.devRef .tc main_arg2) = dstIds m c := (W8_of_ne m ρ c main_arg2 (by decide)).trans (W7_main_arg2 m ρ c)
theorem W8_main_arg5 : W8 m ρ c (Proc.devRef .tc main_arg5) = w2 m c := (W8_of_ne m ρ c main_arg5 (by decide)).trans (W7_main_arg5 m ρ c)

/-! ## After the second scaling region -/
theorem W9_main_v27 : W9 m ρ c (Proc.devRef .tc main_v27) = h1s m c :=
  (W9_arr m ρ c 2).trans ((Cert.ScaleSecond.final (V8 m ρ) c).trans
    (congrArg₂ scaleRows (W8_main_v26 m ρ c) (W8_main_v9 m ρ c)))
theorem W9_main_v12 : W9 m ρ c (Proc.devRef .tc main_v12) = nd m c := (W9_of_ne m ρ c main_v12 (by decide)).trans (W8_main_v12 m ρ c)
theorem W9_main_v14 : W9 m ρ c (Proc.devRef .tc main_v14) = rowOf (b2 m c) := (W9_of_ne m ρ c main_v14 (by decide)).trans (W8_main_v14 m ρ c)
theorem W9_main_arg1 : W9 m ρ c (Proc.devRef .tc main_arg1) = srcIds m c := (W9_of_ne m ρ c main_arg1 (by decide)).trans (W8_main_arg1 m ρ c)
theorem W9_main_arg2 : W9 m ρ c (Proc.devRef .tc main_arg2) = dstIds m c := (W9_of_ne m ρ c main_arg2 (by decide)).trans (W8_main_arg2 m ρ c)
theorem W9_main_arg5 : W9 m ρ c (Proc.devRef .tc main_arg5) = w2 m c := (W9_of_ne m ρ c main_arg5 (by decide)).trans (W8_main_arg5 m ρ c)

/-! ## After the second gather and segment sum -/
theorem W10_main_v37 : W10 m ρ c (Proc.devRef .tc main_v37) = m2 m c :=
  (Cert.HostFold.W10_main_v37 (F := Ideal) m ρ c).trans (by rw [W9_main_v27, W9_main_arg1, W9_main_arg2])
theorem W10_main_v12 : W10 m ρ c (Proc.devRef .tc main_v12) = nd m c := (Cert.HostFold.W10_main_v12 (F := Ideal) m ρ c).trans (W9_main_v12 m ρ c)
theorem W10_main_v14 : W10 m ρ c (Proc.devRef .tc main_v14) = rowOf (b2 m c) := (Cert.HostFold.W10_main_v14 (F := Ideal) m ρ c).trans (W9_main_v14 m ρ c)
theorem W10_main_arg5 : W10 m ρ c (Proc.devRef .tc main_arg5) = w2 m c := (Cert.HostFold.W10_main_arg5 (F := Ideal) m ρ c).trans (W9_main_arg5 m ρ c)

/-! ## After the second dense region: the result -/
theorem W11_main_v38 : W11 m ρ c (Proc.devRef .tc main_v38) = out m c :=
  (W11_arr m ρ c 4).trans ((Cert.DenseSecond.final (V10 m ρ) c).trans
    (congr (congrArg₂ affineRows (congrArg₂ scaleRows (W10_main_v37 m ρ c) (W10_main_v12 m ρ c)) (W10_main_arg5 m ρ c)) (W10_main_v14 m ρ c)))

end Cert.KernelFold

end
-- ==== Proof.KernelValue.lean ====
/-
  The kernel program's run with its result named: every weakly fair execution terminates without a fault, the result
  array ends at the two-layer function of the argument arrays, and the arguments end unchanged. The run with every
  buffer at the last boundary's contents, read at the result (the fold read back) and at each argument (no segment
  writes one).
-/
import proofs.«151540_j48670569398724_1_alg».proof.Proof.KernelRun
import proofs.«151540_j48670569398724_1_alg».proof.Proof.KernelFold

noncomputable section

open Idealize.ShloMosaic Idealize.ShloMosaic.TcCoe Idealize.SL.Sem

namespace Cert.KernelValue

open Cert.KernelIdeal Cert.KernelIdeal.Gen

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
      r.2.mem ((c.tc : Thread nD τ).loc main_v38) = Cert.GcnSpec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c _ (mem_uc main_v38 (by decide))).trans (Cert.KernelFold.W11_main_v38 m ρ c)).trans (Cert.KernelFold.out_eq m c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c)⟩)
    (Cert.KernelRun.run_all (F := Ideal) m ρ)

end Cert.KernelValue

end
-- ==== Proof.LibMatIdx.lean ====
/-
  A host product of two matrices at exact arithmetic, read at an entry: the sum over the contracted axis of the
  products of the left factor's row entries with the right factor's column entries. Stated for any contraction
  record between two-axis shapes whose operand indices are "row of the result, contracted position" and "contracted
  position, column of the result" — facts that hold by computation for the records a product of two matrices prints.
-/
import Idealize.ShloMosaic.Lib.ValueIdx
import Idealize.ShloMosaic.PureOps.Ideal.Laws

noncomputable section

namespace LibMatIdx

open Idealize.ShloMosaic Idealize.ShloMosaic.ValueIdx

theorem dot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j = ∑ k : Fin K, l (ix2 (n0 := M) (n1 := K) (j 0) k) * r (ix2 (n0 := K) (n1 := N) k (j 1)) := by
  show FloatOps.dotGeneral (F := Ideal) D prec .single l r j = _
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatIdx

end
-- ==== Proof.LibBatchLayouts.lean ====
/-
  Batched layouts read at an entry.

  A stack of n rows, matrices or numbers is moved between shapes that differ only by unit axes or by repeating
  entries: a row statistic [n, a] kept as a column [n, a, 1] and repeated along a new last axis [n, a, m]; one
  matrix [a, b] repeated over the batch [n, a, b]; one number per batch element [n] repeated over its matrix
  [n, 1, 1] → [n, a, b]; one number per (batch, channel) [n, a] repeated over two trailing axes [n, a, 1, 1] →
  [n, a, h, w]; a row [a] repeated over the batch [1, a] → [n, a].  Each is stated both for a TensorCore
  cast-then-broadcast and for the host's broadcast-in-dimensions, at an entry written by its coordinates; the
  extents are arbitrary.
-/
import Idealize.ShloMosaic.Lib.ValueIdx
import Idealize.ShloMosaic.Lib.Pipeline.Value

noncomputable section

namespace LibBatchLayouts

open Idealize.ShloMosaic Idealize.ShloMosaic.ValueIdx

variable {α : Type}

/-! ## TensorCore forms: shape casts that add unit axes, broadcasts that repeat along them -/

/-- [n, a] cast to [n, a, 1]: entry (b, c, u) is entry (b, c). -/
theorem shapeCast_na_na1_apply {n a : ℕ} (x : (⟨2, ![n, a]⟩ : Shape).Idx → α)
    (h : (⟨2, ![n, a]⟩ : Shape).ShapeCasts ⟨3, ![n, a, 1]⟩) (b : Fin n) (c : Fin a) (u : Fin 1) :
    shapeCast ⟨3, ![n, a, 1]⟩ x h (ix3 b c u) = x (ix2 b c) :=
  shapeCast_apply x h _ _ (by
    have hu : u.val = 0 := by omega
    rw [Shape.rowMajor_val_two, Shape.rowMajor_val_three]
    show b.val * a + c.val = (b.val * a + c.val) * 1 + u.val
    rw [hu, Nat.mul_one, Nat.add_zero])

/-- [n, a, 1] broadcast to [n, a, m]: entry (b, c, q) is entry (b, c, 0). -/
theorem broadcastTo_na1_nam_apply {n a m : ℕ} (x : (⟨3, ![n, a, 1]⟩ : Shape).Idx → α)
    (h : (⟨3, ![n, a, 1]⟩ : Shape).Broadcasts ⟨3, ![n, a, m]⟩) (b : Fin n) (c : Fin a) (q : Fin m) :
    broadcastTo ⟨3, ![n, a, m]⟩ x h (ix3 b c q) = x (ix3 b c (0 : Fin 1)) := by
  refine broadcastTo_apply x h (ix3 b c q) (ix3 b c (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl

/-- [1, a, b] broadcast to [n, a, b]: entry (p, i, j) is entry (0, i, j). -/
theorem broadcastTo_1ab_nab_apply {n a b : ℕ} (x : (⟨3, ![1, a, b]⟩ : Shape).Idx → α)
    (h : (⟨3, ![1, a, b]⟩ : Shape).Broadcasts ⟨3, ![n, a, b]⟩) (p : Fin n) (i : Fin a) (j : Fin b) :
    broadcastTo ⟨3, ![n, a, b]⟩ x h (ix3 p i j) = x (ix3 (0 : Fin 1) i j) := by
  refine broadcastTo_apply x h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- [n] cast to [n, 1, 1]: entry (b, u, v) is entry b. -/
theorem shapeCast_n_n11_apply {n : ℕ} (x : (⟨1, ![n]⟩ : Shape).Idx → α)
    (h : (⟨1, ![n]⟩ : Shape).ShapeCasts ⟨3, ![n, 1, 1]⟩) (b : Fin n) (u v : Fin 1) :
    shapeCast ⟨3, ![n, 1, 1]⟩ x h (ix3 b u v) = x (ix1 b) :=
  shapeCast_apply x h _ _ (by
    have hu : u.val = 0 := by omega
    have hv : v.val = 0 := by omega
    rw [Shape.rowMajor_val_one, Shape.rowMajor_val_three]
    show b.val = (b.val * 1 + u.val) * 1 + v.val
    omega)

/-- [n, 1, 1] broadcast to [n, a, b]: entry (p, i, j) is entry (p, 0, 0). -/
theorem broadcastTo_n11_nab_apply {n a b : ℕ} (x : (⟨3, ![n, 1, 1]⟩ : Shape).Idx → α)
    (h : (⟨3, ![n, 1, 1]⟩ : Shape).Broadcasts ⟨3, ![n, a, b]⟩) (p : Fin n) (i : Fin a) (j : Fin b) :
    broadcastTo ⟨3, ![n, a, b]⟩ x h (ix3 p i j) = x (ix3 p (0 : Fin 1) (0 : Fin 1)) := by
  refine broadcastTo_apply x h (ix3 p i j) (ix3 p (0 : Fin 1) (0 : Fin 1)) fun ax => ?_
  match ax with
  | ⟨0, _⟩ =>
    show p.val = if n = 1 then 0 else p.val
    split
    · have := p.isLt; omega
    · rfl
  | ⟨1, _⟩ => rfl
  | ⟨2, _⟩ => rfl

/-! ## Host forms: broadcast in dimensions -/

/-- [n, a] placed on axes 0, 1 of [n, a, 1]. -/
theorem bcast_na_na1_apply {n a : ℕ} (h : (⟨2, ![n, a]⟩ : Shape).BroadcastsInDim ⟨3, ![n, a, 1]⟩ (![0, 1] : Fin 2 → Fin 3))
    (x : (⟨2, ![n, a]⟩ : Shape).Idx → α) (b : Fin n) (c : Fin a) (u : Fin 1) :
    broadcastInDim ⟨3, ![n, a, 1]⟩ (![0, 1] : Fin 2 → Fin 3) h x (ix3 b c u) = x (ix2 b c) := by
  refine broadcastInDim_apply (![0, 1] : Fin 2 → Fin 3) h x (ix3 b c u) (ix2 b c) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl

/-- [n, a, 1] repeated along the last axis of [n, a, m]. -/
theorem bcast_na1_nam_apply {n a m : ℕ} (h : (⟨3, ![n, a, 1]⟩ : Shape).BroadcastsInDim ⟨3, ![n, a, m]⟩ (![0, 1, 2] : Fin 3 → Fin 3))
    (x : (⟨3, ![n, a, 1]⟩ : Shape).Idx → α) (b : Fin n) (c : Fin a) (q : Fin m) :
    broadcastInDim ⟨3, ![n, a, m]⟩ (![0, 1, 2] : Fin 3 → Fin 3) h x (ix3 b c q) = x (ix3 b c (0 : Fin 1)) := by
  refine broadcastInDim_apply (![0, 1, 2] : Fin 3 → Fin 3) h x (ix3 b c q) (ix3 b c (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl

/-- [a, b] placed on axes 1, 2 of [1, a, b]. -/
theorem bcast_ab_1ab_apply {a b : ℕ} (h : (⟨2, ![a, b]⟩ : Shape).BroadcastsInDim ⟨3, ![1, a, b]⟩ (![1, 2] : Fin 2 → Fin 3))
    (x : (⟨2, ![a, b]⟩ : Shape).Idx → α) (u : Fin 1) (i : Fin a) (j : Fin b) :
    broadcastInDim ⟨3, ![1, a, b]⟩ (![1, 2] : Fin 2 → Fin 3) h x (ix3 u i j) = x (ix2 i j) := by
  refine broadcastInDim_apply (![1, 2] : Fin 2 → Fin 3) h x (ix3 u i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b] placed on axes 1, 2 of [n, a, b]: the same matrix for every batch element. -/
theorem bcast_ab_nab_apply {n a b : ℕ} (h : (⟨2, ![a, b]⟩ : Shape).BroadcastsInDim ⟨3, ![n, a, b]⟩ (![1, 2] : Fin 2 → Fin 3))
    (x : (⟨2, ![a, b]⟩ : Shape).Idx → α) (p : Fin n) (i : Fin a) (j : Fin b) :
    broadcastInDim ⟨3, ![n, a, b]⟩ (![1, 2] : Fin 2 → Fin 3) h x (ix3 p i j) = x (ix2 i j) := by
  refine broadcastInDim_apply (![1, 2] : Fin 2 → Fin 3) h x (ix3 p i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [1, a, b] repeated over the batch axis of [n, a, b]. -/
theorem bcast_1ab_nab_apply {n a b : ℕ} (h : (⟨3, ![1, a, b]⟩ : Shape).BroadcastsInDim ⟨3, ![n, a, b]⟩ (![0, 1, 2] : Fin 3 → Fin 3))
    (x : (⟨3, ![1, a, b]⟩ : Shape).Idx → α) (p : Fin n) (i : Fin a) (j : Fin b) :
    broadcastInDim ⟨3, ![n, a, b]⟩ (![0, 1, 2] : Fin 3 → Fin 3) h x (ix3 p i j) = x (ix3 (0 : Fin 1) i j) := by
  refine broadcastInDim_apply (![0, 1, 2] : Fin 3 → Fin 3) h x (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- [n] placed on axis 0 of [n, 1, 1]. -/
theorem bcast_n_n11_apply {n : ℕ} (h : (⟨1, ![n]⟩ : Shape).BroadcastsInDim ⟨3, ![n, 1, 1]⟩ (![0] : Fin 1 → Fin 3))
    (x : (⟨1, ![n]⟩ : Shape).Idx → α) (b : Fin n) (u v : Fin 1) :
    broadcastInDim ⟨3, ![n, 1, 1]⟩ (![0] : Fin 1 → Fin 3) h x (ix3 b u v) = x (ix1 b) := by
  refine broadcastInDim_apply (![0] : Fin 1 → Fin 3) h x (ix3 b u v) (ix1 b) fun ax => ?_
  match ax with
  | ⟨0, _⟩ =>
    show b.val = if n = 1 then 0 else b.val
    split
    · have := b.isLt; omega
    · rfl

/-- [n, 1, 1] repeated over the two matrix axes of [n, a, b]. -/
theorem bcast_n11_nab_apply {n a b : ℕ} (h : (⟨3, ![n, 1, 1]⟩ : Shape).BroadcastsInDim ⟨3, ![n, a, b]⟩ (![0, 1, 2] : Fin 3 → Fin 3))
    (x : (⟨3, ![n, 1, 1]⟩ : Shape).Idx → α) (p : Fin n) (i : Fin a) (j : Fin b) :
    broadcastInDim ⟨3, ![n, a, b]⟩ (![0, 1, 2] : Fin 3 → Fin 3) h x (ix3 p i j) = x (ix3 p (0 : Fin 1) (0 : Fin 1)) := by
  refine broadcastInDim_apply (![0, 1, 2] : Fin 3 → Fin 3) h x (ix3 p i j) (ix3 p (0 : Fin 1) (0 : Fin 1)) fun ax => ?_
  match ax with
  | ⟨0, _⟩ =>
    show p.val = if n = 1 then 0 else p.val
    split
    · have := p.isLt; omega
    · rfl
  | ⟨1, _⟩ => rfl
  | ⟨2, _⟩ => rfl

/-- [a] placed on axis 1 of [1, a]. -/
theorem bcast_a_1a_apply {a : ℕ} (h : (⟨1, ![a]⟩ : Shape).BroadcastsInDim ⟨2, ![1, a]⟩ (![1] : Fin 1 → Fin 2))
    (x : (⟨1, ![a]⟩ : Shape).Idx → α) (u : Fin 1) (i : Fin a) :
    broadcastInDim ⟨2, ![1, a]⟩ (![1] : Fin 1 → Fin 2) h x (ix2 u i) = x (ix1 i) := by
  refine broadcastInDim_apply (![1] : Fin 1 → Fin 2) h x (ix2 u i) (ix1 i) fun ax => ?_
  match ax with
  | ⟨0, _⟩ =>
    show i.val = if a = 1 then 0 else i.val
    split
    · have := i.isLt; omega
    · rfl

/-- [1, a] repeated over the rows of [n, a]. -/
theorem bcast_1a_na_apply {n a : ℕ} (h : (⟨2, ![1, a]⟩ : Shape).BroadcastsInDim ⟨2, ![n, a]⟩ (![0, 1] : Fin 2 → Fin 2))
    (x : (⟨2, ![1, a]⟩ : Shape).Idx → α) (p : Fin n) (i : Fin a) :
    broadcastInDim ⟨2, ![n, a]⟩ (![0, 1] : Fin 2 → Fin 2) h x (ix2 p i) = x (ix2 (0 : Fin 1) i) := by
  refine broadcastInDim_apply (![0, 1] : Fin 2 → Fin 2) h x (ix2 p i) (ix2 (0 : Fin 1) i) fun ax => ?_
  match ax with
  | ⟨0, _⟩ => rfl
  | ⟨1, _⟩ =>
    show i.val = if a = 1 then 0 else i.val
    split
    · have := i.isLt; omega
    · rfl

/-- [n, a] placed on axes 0, 1 of [n, a, 1, 1]. -/
theorem bcast_na_na11_apply {n a : ℕ} (h : (⟨2, ![n, a]⟩ : Shape).BroadcastsInDim ⟨4, ![n, a, 1, 1]⟩ (![0, 1] : Fin 2 → Fin 4))
    (x : (⟨2, ![n, a]⟩ : Shape).Idx → α) (b : Fin n) (c : Fin a) (u v : Fin 1) :
    broadcastInDim ⟨4, ![n, a, 1, 1]⟩ (![0, 1] : Fin 2 → Fin 4) h x (ix4 b c u v) = x (ix2 b c) := by
  refine broadcastInDim_apply (![0, 1] : Fin 2 → Fin 4) h x (ix4 b c u v) (ix2 b c) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl

/-- [n, a, 1, 1] repeated over the two trailing axes of [n, a, h, w]. -/
theorem bcast_na11_nahw_apply {n a hh w : ℕ}
    (h : (⟨4, ![n, a, 1, 1]⟩ : Shape).BroadcastsInDim ⟨4, ![n, a, hh, w]⟩ (![0, 1, 2, 3] : Fin 4 → Fin 4))
    (x : (⟨4, ![n, a, 1, 1]⟩ : Shape).Idx → α) (b : Fin n) (c : Fin a) (y : Fin hh) (z : Fin w) :
    broadcastInDim ⟨4, ![n, a, hh, w]⟩ (![0, 1, 2, 3] : Fin 4 → Fin 4) h x (ix4 b c y z) = x (ix4 b c (0 : Fin 1) (0 : Fin 1)) := by
  refine broadcastInDim_apply (![0, 1, 2, 3] : Fin 4 → Fin 4) h x (ix4 b c y z) (ix4 b c (0 : Fin 1) (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl
  | ⟨3, _⟩ => rfl

/-- A number (a rank-0 array) repeated over a two-axis shape. -/
theorem bcast_scalar2_apply {d : Fin 2 → ℕ} (h : (⟨0, ![]⟩ : Shape).BroadcastsInDim ⟨2, d⟩ (![] : Fin 0 → Fin 2))
    (x : (⟨0, ![]⟩ : Shape).Idx → α) (j : (⟨2, d⟩ : Shape).Idx) :
    broadcastInDim ⟨2, d⟩ (![] : Fin 0 → Fin 2) h x j = x ix0 := by
  unfold broadcastInDim; exact congrArg x (funext fun a => a.elim0)

/-- A number repeated over a three-axis shape. -/
theorem bcast_scalar3_apply {d : Fin 3 → ℕ} (h : (⟨0, ![]⟩ : Shape).BroadcastsInDim ⟨3, d⟩ (![] : Fin 0 → Fin 3))
    (x : (⟨0, ![]⟩ : Shape).Idx → α) (j : (⟨3, d⟩ : Shape).Idx) :
    broadcastInDim ⟨3, d⟩ (![] : Fin 0 → Fin 3) h x j = x ix0 := by
  unfold broadcastInDim; exact congrArg x (funext fun a => a.elim0)

/-- A matrix transposed: entry (j, i) is entry (i, j). -/
theorem transpose_2d_apply {a b : ℕ} (x : (⟨2, ![a, b]⟩ : Shape).Idx → α)
    (h : (⟨2, ![a, b]⟩ : Shape).Transposes ([1, 0] : List (Fin 2)) ⟨2, ![b, a]⟩) (j : Fin b) (i : Fin a) :
    transpose ⟨2, ![b, a]⟩ ([1, 0] : List (Fin 2)) x h (ix2 j i) = x (ix2 i j) :=
  transpose_apply _ x h _ _ fun c => match c with | ⟨0, _⟩ => rfl | ⟨1, _⟩ => rfl

end LibBatchLayouts

end
-- ==== Proof.LibColumnInDim.lean ====
/-
  A vector placed as a column, and a column repeated along the rows' entries, both as `broadcast_in_dim`, read at an
  entry, for any element type.

  A vector of length n mapped onto axis 0 of the shape [n, 1] reads, at (r, 0), the vector's entry r. A column [a, 1]
  mapped onto axes (0, 1) of [a, b] reads, at (p, q), the column's entry p: the unit axis is the one repeated.
-/
import Idealize.ShloMosaic.Lib.ValueIdx
import Idealize.ShloMosaic.Lib.Pipeline.Value

noncomputable section

namespace LibColumnInDim

open Idealize.ShloMosaic Idealize.ShloMosaic.ValueIdx

variable {α : Type}

/-- [n] on axis 0 of [n, 1]: entry (r, z) is the vector's entry r. -/
theorem bcast_n_n1_apply {n : ℕ} (h : (⟨1, ![n]⟩ : Shape).BroadcastsInDim ⟨2, ![n, 1]⟩ (![0] : Fin 1 → Fin 2))
    (x : (⟨1, ![n]⟩ : Shape).Idx → α) (r : Fin n) (z : Fin 1) :
    broadcastInDim ⟨2, ![n, 1]⟩ (![0] : Fin 1 → Fin 2) h x (ix2 r z) = x (ix1 r) := by
  refine broadcastInDim_apply (![0] : Fin 1 → Fin 2) h x (ix2 r z) (ix1 r) fun ax => ?_
  match ax with
  | ⟨0, _⟩ =>
    show r.val = if n = 1 then 0 else r.val
    split
    · have := r.isLt; omega
    · rfl

/-- [a, 1] repeated over the columns of [a, b]: entry (p, q) is the column's entry p. -/
theorem bcast_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ (![0, 1] : Fin 2 → Fin 2) h x (ix2 p q) = x (ix2 p (0 : Fin 1)) := by
  refine broadcastInDim_apply (![0, 1] : Fin 2 → Fin 2) h x (ix2 p q) (ix2 p (0 : Fin 1)) fun ax => ?_
  match ax with
  | ⟨0, _⟩ =>
    show p.val = if a = 1 then 0 else p.val
    split
    · have := p.isLt; omega
    · rfl
  | ⟨1, _⟩ => rfl

end LibColumnInDim

end
-- ==== Proof.RefValue.lean ====
/-
  The reference computes the two-layer function: its run's result term, operation by operation, is the specification.

  Three whole-array identities carry it. A product with the vector of node factors placed as a column and repeated along
  the 64 features is the row scaling by that column. A matrix product with the weights plus the bias vector placed as a
  row and repeated along the rows is the affine map: the host product at (r, c) is the sum over k of y[r,k] · w[k,c].
  The maximum with the zero splat is the entrywise maximum with the zero word's number. The degree counts, the gathers
  and the segment sums are the same host operations on both sides and are never opened. The reference's term is read one
  operation at a time, each earlier value kept as a name.
-/
import proofs.«151540_j48670569398724_1_alg».proof.Proof.Gen.KernelIdeal
import proofs.«151540_j48670569398724_1_alg».proof.Proof.Gen.ReferenceIdeal.Run
import proofs.«151540_j48670569398724_1_alg».proof.Proof.Gen.ReferenceIdeal.Read
import proofs.«151540_j48670569398724_1_alg».proof.Proof.GcnSpec
import proofs.«151540_j48670569398724_1_alg».proof.Proof.LibMatIdx
import proofs.«151540_j48670569398724_1_alg».proof.Proof.LibBatchLayouts
import proofs.«151540_j48670569398724_1_alg».proof.Proof.LibColumnInDim
import proofs.«151540_j48670569398724_1_alg».proof.Proof.LibKeepdims
import proofs.«151540_j48670569398724_1_alg».proof.Proof.LibRowOps

set_option maxRecDepth 16384

noncomputable section

open Idealize.ShloMosaic Idealize.ShloMosaic.TcCoe Idealize.SL.Sem Idealize.ShloMosaic.ValueIdx

namespace Cert.RefValue

open Cert.ReferenceIdeal Cert.ReferenceIdeal.Gen Cert.GcnSpec

/-- x times the factors (a vector placed as a column, repeated along the features) is the row scaling. -/
theorem scale_eq (x : FVec Ideal S100000x64 .f32) (v : FVec Ideal S100000 .f32) :
    mulf x (broadcastInDim S100000x64 ![0, 1] bcast_S100000x1_S100000x64_0_1 (broadcastInDim S100000x1 ![0] bcast_S100000_S100000x1_0 v))
      = scaleRows x (colOf v) := by
  funext i
  obtain ⟨p, q, rfl⟩ : ∃ (p : Fin 100000) (q : Fin 64), i = ix2 p q := ⟨i 0, i 1, eq_ix2 i⟩
  show x (ix2 p q) * broadcastInDim S100000x64 ![0, 1] _ (broadcastInDim S100000x1 ![0] _ v) (ix2 p q)
    = x (ix2 p q) * shapeCast Cert.KernelIdeal.S100000x1 v _ (ix2 p (0 : Fin 1))
  rw [LibColumnInDim.bcast_a1_ab_apply, LibColumnInDim.bcast_n_n1_apply, LibKeepdims.shapeCast_col_apply]

/-- y · w plus the bias (a vector placed as a row, repeated along the rows) is the affine map. -/
theorem affine_eq (y : FVec Ideal S100000x64 .f32) (w : FVec Ideal S64x64 .f32) (b : FVec Ideal S64 .f32) :
    addf (Host.dotGeneral dot_S100000x64_S64x64_S100000x64_1_0_0_1_n_n none y w)
        (broadcastInDim S100000x64 ![0, 1] bcast_S1x64_S100000x64_0_1 (broadcastInDim S1x64 ![1] bcast_S64_S1x64_1 b))
      = affineRows y w (rowOf b) := by
  funext i
  obtain ⟨p, q, rfl⟩ : ∃ (p : Fin 100000) (q : Fin 64), i = ix2 p q := ⟨i 0, i 1, eq_ix2 i⟩
  show Host.dotGeneral (F := Ideal) dot_S100000x64_S64x64_S100000x64_1_0_0_1_n_n none y w (ix2 p q)
      + broadcastInDim S100000x64 ![0, 1] _ (broadcastInDim S1x64 ![1] _ b) (ix2 p q)
    = (∑ k : Fin 64, y (ix2 p k) * w (ix2 k q)) + shapeCast Cert.KernelIdeal.S1x64 b _ (ix2 (0 : Fin 1) q)
  rw [LibMatIdx.dot2_apply dot_S100000x64_S64x64_S100000x64_1_0_0_1_n_n rfl rfl Read.lhs_main_v27_0 Read.lhs_main_v27_1
      Read.rhs_main_v27_0 Read.rhs_main_v27_1,
    LibBatchLayouts.bcast_1a_na_apply, LibBatchLayouts.bcast_a_1a_apply, LibRowOps.shapeCast_row_apply]

/-- The maximum with the zero splat is the entrywise maximum with the zero word's number. -/
theorem relu_eq (z : FVec Ideal S100000x64 .f32) :
    maximumf z (broadcastInDim S100000x64 ![] bcast_S_S100000x64 (constant (F := Ideal) S_ .f32 0x00000000#32)) = reluRows z := by
  funext i
  show max (z i) (broadcastInDim S100000x64 ![] _ (constant (F := Ideal) S_ .f32 0x00000000#32) i) = max (z i) (Ideal.ofBits .f32 0x00000000#32)
  rw [LibBatchLayouts.bcast_scalar2_apply]
  rfl

/-! ## The reference's stages, one at a time (each earlier stage kept as a name) -/

section Stages

open Cert.ReferenceIdeal.Read

variable (x0 : FVec Ideal S100000x64 .f32) (x1 x2 : Vec Ideal S1600000 .i32) (x3 : FVec Ideal S64x64 .f32) (x4 : FVec Ideal S64 .f32)
  (x5 : FVec Ideal S64x64 .f32) (x6 : FVec Ideal S64 .f32)

/-- The source-side factors. -/
theorem stage_ns : val_main_v8 (F := Ideal) x1 = degNorm x1 := rfl
/-- The destination-side factors. -/
theorem stage_nd : val_main_v10 (F := Ideal) x2 = degNorm x2 := rfl

/-- Layer 1: the features scaled by the source factors. -/
theorem stage_scale1 : val_main_v13 (F := Ideal) x0 x1 = scaleRows x0 (colOf (degNorm x1)) := by
  unfold val_main_v13 val_main_v12 val_main_v11
  rw [stage_ns]
  exact scale_eq _ _

/-- Layer 1: gathered by source and summed by destination. -/
theorem stage_agg1 : val_main_v23 (F := Ideal) x0 x1 x2 = aggregate (val_main_v13 (F := Ideal) x0 x1) x1 x2 := rfl

/-- Layer 1: scaled by the destination factors. -/
theorem stage_scale1' : val_main_v26 (F := Ideal) x0 x1 x2 = scaleRows (val_main_v23 (F := Ideal) x0 x1 x2) (colOf (degNorm x2)) := by
  unfold val_main_v26 val_main_v25 val_main_v24
  rw [stage_nd]
  exact scale_eq _ _

/-- Layer 1: times the weights plus the bias. -/
theorem stage_affine1 : val_main_v30 (F := Ideal) x0 x1 x2 x3 x4 = affineRows (val_main_v26 (F := Ideal) x0 x1 x2) x3 (rowOf x4) := by
  unfold val_main_v30 val_main_v27 val_main_v29 val_main_v28
  exact affine_eq _ _ _

/-- Layer 1: the maximum with zero. -/
theorem stage_relu : val_main_v31 (F := Ideal) x0 x1 x2 x3 x4 = reluRows (val_main_v30 (F := Ideal) x0 x1 x2 x3 x4) := by
  unfold val_main_v31 val_main_call2_v0 val_main_call2_cst
  exact relu_eq _

/-- Layer 2: scaled by the source factors. -/
theorem stage_scale2 : val_main_v34 (F := Ideal) x0 x1 x2 x3 x4 = scaleRows (val_main_v31 (F := Ideal) x0 x1 x2 x3 x4) (colOf (degNorm x1)) := by
  unfold val_main_v34 val_main_v33 val_main_v32
  rw [stage_ns]
  exact scale_eq _ _

/-- Layer 2: gathered by source and summed by destination. -/
theorem stage_agg2 : val_main_v44 (F := Ideal) x0 x1 x2 x3 x4 = aggregate (val_main_v34 (F := Ideal) x0 x1 x2 x3 x4) x1 x2 := rfl

/-- Layer 2: scaled by the destination factors. -/
theorem stage_scale2' : val_main_v47 (F := Ideal) x0 x1 x2 x3 x4 = scaleRows (val_main_v44 (F := Ideal) x0 x1 x2 x3 x4) (colOf (degNorm x2)) := by
  unfold val_main_v47 val_main_v46 val_main_v45
  rw [stage_nd]
  exact scale_eq _ _

/-- Layer 2: times the weights plus the bias. -/
theorem stage_affine2 : val_main_v51 (F := Ideal) x0 x1 x2 x3 x4 x5 x6 = affineRows (val_main_v47 (F := Ideal) x0 x1 x2 x3 x4) x5 (rowOf x6) := by
  unfold val_main_v51 val_main_v48 val_main_v50 val_main_v49
  exact affine_eq _ _ _

/-- The last stage is the two-layer function. -/
theorem stages_eq : val_main_v51 (F := Ideal) x0 x1 x2 x3 x4 x5 x6 = result x0 x1 x2 x3 x4 x5 x6 := by
  rw [stage_affine2, stage_scale2', stage_agg2, stage_scale2, stage_relu, stage_affine1, stage_scale1', stage_agg1, stage_scale1]
  rfl

end Stages

/-- The reference run's result term is the two-layer function of the argument arrays. -/
theorem result_eq (m : (ℓ : Loc nD τ sig) → Buf (Elt Ideal) ℓ) (c : Dev nD) :
    Cert.ReferenceIdeal.Value.res_main_v51 (F := Ideal) m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) :=
  (Cert.ReferenceIdeal.Read.val_main_v51_eq (F := Ideal) m c).trans (stages_eq _ _ _ _ _ _ _)

end Cert.RefValue

end
-- ==== Proof.lean ====
/-
  Both programs are a two-layer graph convolution on 100000 nodes with 64 features and 1600000 edges, computed in the same
  order of operations: degree factors 1/√max(1, degree) from segment sums of ones; per layer, rows scaled by the source
  factors, gathered by source node and segment-summed by destination node, rows scaled by the destination factors, times a
  64×64 weight matrix, plus a bias row; max(·, 0) after the first layer. The kernel program runs the two row scalings and
  the two dense steps as grid regions over blocks of 10000 rows (narrowing to bf16 before its matrix product, the identity on
  extended reals) and keeps the degree counts, gathers and segment sums on the host; the reference is host operations
  throughout. At exact arithmetic the two results are one function of the arguments, entry by entry: a blocked product
  into a zero accumulator and the host's product are the same sum over the contracted axis, a column or row repeated by a
  broadcast reads the same entry either way, and the shared host operations are never opened. No property of the inputs is
  used. The ideal pass rewrote nothing, so the preservation claim has no conjunct.
-/
import proofs.«151540_j48670569398724_1_alg».proof.Defs
import proofs.«151540_j48670569398724_1_alg».proof.Proof.Gen.Kernel
import proofs.«151540_j48670569398724_1_alg».proof.Proof.Gen.Kernel.Frame
import proofs.«151540_j48670569398724_1_alg».proof.Proof.Gen.KernelIdeal
import proofs.«151540_j48670569398724_1_alg».proof.Proof.Gen.KernelIdeal.Frame
import proofs.«151540_j48670569398724_1_alg».proof.Proof.Gen.ReferenceIdeal
import proofs.«151540_j48670569398724_1_alg».proof.Proof.Gen.ReferenceIdeal.Run
import proofs.«151540_j48670569398724_1_alg».proof.Proof.Gen.Pre_finite_inputs
import proofs.«151540_j48670569398724_1_alg».proof.Proof.KernelValue
import proofs.«151540_j48670569398724_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read at exact arithmetic. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the two-layer function of the arguments in their
    result arrays. -/
theorem algebraic : Cert.algebraic_KernelIdeal_ReferenceIdeal := by
  intro m ρ m' ρ' _ hagree
  refine ⟨fun c => Cert.GcnSpec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.RefValue.result_eq]
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
